-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1000 : Shape := ⟨2, ![131072, 1000]⟩
abbrev S_ : Shape := ⟨0, ![]⟩

class Facts : Prop where
  bcast_S_S131072x1000 : S_.BroadcastsInDim S131072x1000 (![] : Fin 0 → Fin S131072x1000.rank)
  reducesTo_S131072x1000_S_d0_1 : S131072x1000.ReducesTo [0, 1] S_
  h_S_ : 0 < S_.numel

variable [Facts]

def fn {F : FTy → Type} [FloatOps F] (main_arg0 : FVec F S131072x1000 .f32) (main_arg1 : FVec F S131072x1000 .f32) : IVec S_ 1 :=
  let main_v0 : FVec F S131072x1000 .f32 := Host.absf main_arg0
  let main_cst : FVec F S_ .f32 := constant S_ .f32 0x7F800000#32
  let main_v1 : FVec F S131072x1000 .f32 := broadcastInDim S131072x1000 ![] bcast_S_S131072x1000 main_cst
  let main_v2 : IVec S131072x1000 1 := cmpf .olt main_v0 main_v1
  let main_c : IVec S_ 1 := constantI S_ 1 1#1
  let main_v3 : IVec S_ 1 := (fun x v => Host.reduce IntOp.andi x v reducesTo_S131072x1000_S_d0_1 h_S_) main_v2 main_c
  let main_v4 : FVec F S131072x1000 .f32 := Host.absf main_arg1
  let main_cst_0 : FVec F S_ .f32 := constant S_ .f32 0x7F800000#32
  let main_v5 : FVec F S131072x1000 .f32 := broadcastInDim S131072x1000 ![] bcast_S_S131072x1000 main_cst_0
  let main_v6 : IVec S131072x1000 1 := cmpf .olt main_v4 main_v5
  let main_c_1 : IVec S_ 1 := constantI S_ 1 1#1
  let main_v7 : IVec S_ 1 := (fun x v => Host.reduce IntOp.andi x v reducesTo_S131072x1000_S_d0_1 h_S_) main_v6 main_c_1
  let main_v8 : IVec S_ 1 := andi main_v3 main_v7
  main_v8
-- ==== Kernel.lean ====
abbrev S131072x1000 : Shape := ⟨2, ![131072, 1000]⟩
abbrev S2x8x128 : Shape := ⟨3, ![2, 8, 128]⟩
abbrev S1024x1000 : Shape := ⟨2, ![1024, 1000]⟩
abbrev S1x8x128 : Shape := ⟨3, ![1, 8, 128]⟩
abbrev S1x1 : Shape := ⟨2, ![1, 1]⟩
abbrev S1024 : Shape := ⟨1, ![1024]⟩
abbrev S1024x1 : Shape := ⟨2, ![1024, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S131072x1000, .f32⟩
  | .hbm, ⟨1, _⟩ => ⟨S131072x1000, .f32⟩
  | .hbm, ⟨2, _⟩ => ⟨S2x8x128, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1000, .f32⟩
  | .local _ .vmem, ⟨3, _⟩ => ⟨S1024x1000, .f32⟩
  | .local _ .vmem, ⟨4, _⟩ => ⟨S1x8x128, .f32⟩
  | .local _ .vmem, ⟨5, _⟩ => ⟨S1x8x128, .f32⟩
  | .local _ .vmem, ⟨6, _⟩ => ⟨S1x1, .f32⟩
  | _, _ => ⟨S131072x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v28 : BitVec 1 := Scalar.cmpi .eq arg1 c63_i32
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  reduces_S1024x1_S1 : S1024x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S131072x1000.size a
  hwx0_0 : ∀ i : grid0.Coords, EltTy.bits .f32 = 32 ∨ (Rect.block (s := S131072x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S131072x1000.size a
  hwx0_1 : ∀ i : grid0.Coords, EltTy.bits .f32 = 32 ∨ (Rect.block (s := S131072x1000) S1024x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072x1000 : Shape := ⟨2, ![131072, 1000]⟩
abbrev S_ : Shape := ⟨0, ![]⟩
abbrev S131072 : Shape := ⟨1, ![131072]⟩
abbrev S131072x1 : Shape := ⟨2, ![131072, 1]⟩

abbrev nBuf : Space → Nat
  | .hbm => 25
  | .vmem => 0
  | .smem => 0
  | _ => 0

abbrev bufTy : (tb : Table) → Fin (tcTables nBuf tb) → BufTy
  | .hbm, ⟨0, _⟩ => ⟨S131072x1000, .f32⟩
  | .hbm, ⟨1, _⟩ => ⟨S131072x1000, .f32⟩
  | .hbm, ⟨2, _⟩ => ⟨S_, .f32⟩
  | .hbm, ⟨3, _⟩ => ⟨S131072, .f32⟩
  | .hbm, ⟨4, _⟩ => ⟨S_, .f32⟩
  | .hbm, ⟨5, _⟩ => ⟨S131072, .f32⟩
  | .hbm, ⟨6, _⟩ => ⟨S131072, .f32⟩
  | .hbm, ⟨7, _⟩ => ⟨S131072x1, .f32⟩
  | .hbm, ⟨8, _⟩ => ⟨S131072x1000, .f32⟩
  | .hbm, ⟨9, _⟩ => ⟨S131072x1000, .f32⟩
  | .hbm, ⟨10, _⟩ => ⟨S131072x1000, .f32⟩
  | .hbm, ⟨11, _⟩ => ⟨S_, .f32⟩
  | .hbm, ⟨12, _⟩ => ⟨S131072, .f32⟩
  | .hbm, ⟨13, _⟩ => ⟨S131072x1, .f32⟩
  | .hbm, ⟨14, _⟩ => ⟨S131072x1, .f32⟩
  | .hbm, ⟨15, _⟩ => ⟨S131072x1000, .f32⟩
  | .hbm, ⟨16, _⟩ => ⟨S131072x1000, .f32⟩
  | .hbm, ⟨17, _⟩ => ⟨S131072x1000, .f32⟩
  | .hbm, ⟨18, _⟩ => ⟨S_, .f32⟩
  | .hbm, ⟨19, _⟩ => ⟨S131072, .f32⟩
  | .hbm, ⟨20, _⟩ => ⟨S131072, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S131072x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩

abbrev nD : Nat := 1
abbrev τ : Topo := Topo.v7x

variable {F : FTy → Type} [FloatOps F]

class Facts₀ : Prop where
  reducesTo_S131072x1000_S131072_d1 : S131072x1000.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x1000_0_1 : S131072x1.BroadcastsInDim S131072x1000 (![0, 1] : Fin 2 → Fin S131072x1000.rank)
  reducesTo_S131072_S_d0 : S131072.ReducesTo [0] S_

variable [Facts₀]

class Facts : Prop extends Facts₀ where

variable [Facts]
-- ==== Proof.Spec.lean ====
/-
  Soft-label cross entropy, as one function of the two argument arrays over the extended reals.

  For a row of logits `x` and a row of weights `t` (1000 classes) write `M = max_k x k` and
  `L = log (∑_k exp (x k - M))`, so that `log_softmax x k = (x k - M) - L`. The row's loss is
  `- ∑_k t k * ((x k - M) - L)` (`refRow`); distributing `t k` over the bracket gives
  `(M + L) * ∑_k t k - ∑_k t k * x k` (`kernelRow`). The result is the mean of the row losses over the
  131072 rows. One side sums the rows in one pass (`refTotal`); the other sums them 1024 at a time
  (`blockSum`), accumulates 64 consecutive blocks at a time (`acc`: the accumulator is restarted at
  every multiple of 64) and adds the two accumulated halves (`kernelTotal`).
  This module only states the two functions; it imports no program.
-/
import Idealize.ShloMosaic.PureOps.Ideal
import Idealize.ShloMosaic.Lib.ValueIdx

noncomputable section

open scoped BigOperators

namespace Cert.SoftCE

open Idealize.ShloMosaic Idealize.ShloMosaic.ValueIdx

/-- A 131072 × 1000 array of extended reals. -/
abbrev Arr : Type := (⟨2, ![131072, 1000]⟩ : Shape).Idx → EReal

/-- The largest entry of a row (the fold of `max` from `-∞`). -/
def rowMax (x : Fin 1000 → EReal) : EReal := (Finset.univ : Finset (Fin 1000)).fold max ⊥ x

/-- `log ∑_k exp (x k - max x)`: the row's log-sum-exp, shifted by its maximum. -/
def rowLse (x : Fin 1000 → EReal) : EReal := Ideal.log (∑ k : Fin 1000, Ideal.exp (x k - rowMax x))

/-- The row loss with the weights distributed: `(M + L) * ∑ t - ∑ t * x`. -/
def kernelRow (x t : Fin 1000 → EReal) : EReal :=
  (rowMax x + rowLse x) * (∑ k : Fin 1000, t k) - ∑ k : Fin 1000, t k * x k

/-- The row loss as the weighted sum of `- log_softmax`: `- ∑ t * ((x - M) - L)`. -/
def refRow (x t : Fin 1000 → EReal) : EReal :=
  -(∑ k : Fin 1000, t k * ((x k - rowMax x) - rowLse x))

/-- Row `n` of an array (rows past the last are never read; they are given the value 0). -/
def rowAt (X : Arr) (n : ℕ) : Fin 1000 → EReal :=
  fun k => if h : n < 131072 then X (ix2 ⟨n, h⟩ k) else 0

theorem rowAt_of_lt (X : Arr) {n : ℕ} (h : n < 131072) : rowAt X n = fun k => X (ix2 ⟨n, h⟩ k) := by
  funext k; exact dif_pos h

/-- The sum of the row losses of block `b`: rows `1024 b` to `1024 b + 1023`. -/
def blockSum (X T : Arr) (b : ℕ) : EReal :=
  ∑ r : Fin 1024, kernelRow (rowAt X (b * 1024 + r.val)) (rowAt T (b * 1024 + r.val))

/-- The accumulator after block `n`: restarted at every multiple of 64, otherwise the previous value plus the block's sum. -/
def acc (X T : Arr) : ℕ → EReal
  | 0 => blockSum X T 0
  | n + 1 => if (n + 1) % 64 = 0 then blockSum X T (n + 1) else acc X T n + blockSum X T (n + 1)

/-- The two accumulated halves added and divided by the number of rows (the word of `131072.0`). -/
def kernelTotal (X T : Arr) : EReal :=
  Ideal.div (acc X T 63 + acc X T 127) (Ideal.ofBits .f32 0x48000000#32)

/-- The mean of the row losses, the rows summed in one pass. -/
def refTotal (X T : Arr) : EReal :=
  Ideal.div (∑ n : Fin 131072, refRow (rowAt X n.val) (rowAt T n.val)) (Ideal.ofBits .f32 0x48000000#32)

end Cert.SoftCE

end
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.SpecLaw.lean ====
/-
  The two forms of the soft-label cross entropy agree on real inputs.

  Over the extended reals multiplication does not distribute over addition at the infinities, so the
  identity `t * ((x - M) - L) = t * x - (M + L) * t` is only available when every quantity is a real
  number. On a row of reals the maximum `M` is a real, each `exp (x k - M)` is a positive real, so
  their sum is a positive real and its logarithm `L` is a real; the row identity is then an identity
  of real numbers, read back through the coercion. The totals agree because the accumulator, restarted
  at every multiple of 64, holds after block `64 q + r` the sum of the blocks `64 q, …, 64 q + r`; the
  two halves together are the sum of all 128 blocks, which is the sum over all 131072 rows.
-/
import proofs.«178073_j34102040330686_2_alg».proof.Proof.Spec
import proofs.«178073_j34102040330686_2_alg».proof.Proof.LibERealSums

noncomputable section

open scoped BigOperators

namespace Cert.SoftCE

open Idealize.ShloMosaic Idealize.ShloMosaic.ValueIdx Cert.Lib.ERealSums

/-! ### A row of reals -/

theorem univ1000_nonempty : (Finset.univ : Finset (Fin 1000)).Nonempty :=
  ⟨⟨0, by norm_num⟩, Finset.mem_univ _⟩

/-- The maximum of a row of reals is a real. -/
theorem rowMax_real (a : Fin 1000 → ℝ) : ∃ M : ℝ, rowMax (fun k => ((a k : ℝ) : EReal)) = (M : EReal) :=
  fold_max_real Finset.univ univ1000_nonempty a

/-- The shifted log-sum-exp of a row of reals is a real: the sum of the exponentials is positive. -/
theorem rowLse_real (a : Fin 1000 → ℝ) : ∃ L : ℝ, rowLse (fun k => ((a k : ℝ) : EReal)) = (L : EReal) := by
  obtain ⟨M, hM⟩ := rowMax_real a
  have h1 : ∀ k : Fin 1000, Ideal.exp (((a k : ℝ) : EReal) - (M : EReal)) = ((Real.exp (a k - M) : ℝ) : EReal) := by
    intro k
    rw [← EReal.coe_sub, Ideal.exp_coe]
  have hpos : 0 < ∑ k : Fin 1000, Real.exp (a k - M) :=
    Finset.sum_pos (fun k _ => Real.exp_pos _) univ1000_nonempty
  refine ⟨Real.log (∑ k : Fin 1000, Real.exp (a k - M)), ?_⟩
  unfold rowLse
  rw [hM, Finset.sum_congr rfl (fun k _ => h1 k), coe_sum_real, Ideal.log_coe, if_neg (not_le.mpr hpos)]

/-- The row identity on reals: `(M + L) * ∑ t - ∑ t * x = - ∑ t * ((x - M) - L)`. -/
theorem kernelRow_eq_refRow_real (a b : Fin 1000 → ℝ) :
    kernelRow (fun k => ((a k : ℝ) : EReal)) (fun k => ((b k : ℝ) : EReal)) =
      refRow (fun k => ((a k : ℝ) : EReal)) (fun k => ((b k : ℝ) : EReal)) := by
  obtain ⟨M, hM⟩ := rowMax_real a
  obtain ⟨L, hL⟩ := rowLse_real a
  have e1 : ∀ k : Fin 1000, ((b k : ℝ) : EReal) * ((a k : ℝ) : EReal) = ((b k * a k : ℝ) : EReal) :=
    fun k => (EReal.coe_mul _ _).symm
  have e2 : ∀ k : Fin 1000, ((b k : ℝ) : EReal) * ((((a k : ℝ) : EReal) - (M : EReal)) - (L : EReal)) =
      ((b k * ((a k - M) - L) : ℝ) : EReal) := by
    intro k
    rw [← EReal.coe_sub, ← EReal.coe_sub, ← EReal.coe_mul]
  -- the identity of real numbers
  have hreal : (M + L) * (∑ k : Fin 1000, b k) - ∑ k : Fin 1000, b k * a k =
      -(∑ k : Fin 1000, b k * ((a k - M) - L)) := by
    have e3 : ∀ k : Fin 1000, b k * ((a k - M) - L) = b k * a k - (M + L) * b k := fun k => by ring
    rw [Finset.sum_congr rfl (fun k _ => e3 k), Finset.sum_sub_distrib, ← Finset.mul_sum]
    ring
  simp only [kernelRow, refRow]
  rw [hM, hL, Finset.sum_congr rfl (fun k _ => e1 k), Finset.sum_congr rfl (fun k _ => e2 k),
    coe_sum_real, coe_sum_real, coe_sum_real, ← EReal.coe_add, ← EReal.coe_mul, ← EReal.coe_sub,
    ← EReal.coe_neg, hreal]

/-- The two row losses agree on a row of real logits with real weights. -/
theorem kernelRow_eq_refRow (x t : Fin 1000 → EReal) (hx : ∀ k, ∃ r : ℝ, x k = (r : EReal))
    (ht : ∀ k, ∃ r : ℝ, t k = (r : EReal)) : kernelRow x t = refRow x t := by
  choose a ha using hx
  choose b hb using ht
  obtain rfl : x = fun k => ((a k : ℝ) : EReal) := funext ha
  obtain rfl : t = fun k => ((b k : ℝ) : EReal) := funext hb
  exact kernelRow_eq_refRow_real a b

/-! ### The accumulator -/

/-- After block `64 q + r` (`r < 64`) the accumulator holds the sum of the blocks `64 q, …, 64 q + r`:
    it was restarted at block `64 q` and has added every block since. -/
theorem acc_closed (X T : Arr) (q : ℕ) :
    ∀ r : ℕ, r < 64 → acc X T (64 * q + r) = ∑ s ∈ Finset.range (r + 1), blockSum X T (64 * q + s)
  | 0, _ => by
    rw [Finset.sum_range_one]
    cases q with
    | zero => rfl
    | succ q =>
      show acc X T ((64 * q + 63) + 1) = blockSum X T ((64 * q + 63) + 1)
      rw [acc, if_pos (by omega)]
  | r + 1, h => by
    have ih := acc_closed X T q r (by omega)
    show acc X T ((64 * q + r) + 1) = _
    rw [acc, if_neg (by omega), ih]
    exact (Finset.sum_range_succ (fun s => blockSum X T (64 * q + s)) (r + 1)).symm

/-- The two accumulated halves together are the sum of all 128 blocks. -/
theorem acc_halves (X T : Arr) :
    acc X T 63 + acc X T 127 = ∑ b ∈ Finset.range 128, blockSum X T b := by
  have h63 : acc X T 63 = ∑ s ∈ Finset.range 64, blockSum X T s := by
    have h := acc_closed X T 0 63 (by norm_num)
    simp only [Nat.mul_zero, Nat.zero_add] at h
    exact h
  have h127 : acc X T 127 = ∑ s ∈ Finset.range 64, blockSum X T (64 + s) := by
    have h := acc_closed X T 1 63 (by norm_num)
    simp only [Nat.mul_one] at h
    exact h
  rw [h63, h127]
  exact (Finset.sum_range_add (fun b => blockSum X T b) 64 64).symm

/-! ### Blocks of rows -/

/-- Summing `m` consecutive blocks of `n` terms is summing the `m * n` terms. -/
theorem sum_blocks {M : Type*} [AddCommMonoid M] (m n : ℕ) (f : ℕ → M) :
    ∑ b ∈ Finset.range m, ∑ r : Fin n, f (b * n + r.val) = ∑ i : Fin (m * n), f i.val := by
  rw [Finset.sum_range (fun b => ∑ r : Fin n, f (b * n + r.val)),
    ← Fintype.sum_prod_type' (fun (b : Fin m) (r : Fin n) => f (b.val * n + r.val))]
  refine Fintype.sum_equiv finProdFinEquiv _ _ ?_
  rintro ⟨b, r⟩
  simp only [finProdFinEquiv_apply_val]
  congr 1
  ring

/-- The 128 blocks of 1024 rows are the 131072 rows. -/
theorem sum_blocks_rows (f : ℕ → EReal) :
    ∑ b ∈ Finset.range 128, ∑ r : Fin 1024, f (b * 1024 + r.val) = ∑ n : Fin 131072, f n.val :=
  sum_blocks 128 1024 f

/-- Every entry of a row of an array of reals is a real (rows past the last are 0). -/
theorem rowAt_real (X : Arr) (hX : ∀ i, ∃ r : ℝ, X i = (r : EReal)) (n : ℕ) (k : Fin 1000) :
    ∃ r : ℝ, rowAt X n k = (r : EReal) := by
  unfold rowAt
  split_ifs with h
  · exact hX _
  · exact ⟨0, EReal.coe_zero.symm⟩

/-- The two totals agree on arrays of reals. -/
theorem kernelTotal_eq_refTotal (X T : Arr) (hX : ∀ i, ∃ r : ℝ, X i = (r : EReal))
    (hT : ∀ i, ∃ r : ℝ, T i = (r : EReal)) : kernelTotal X T = refTotal X T := by
  have hsum : acc X T 63 + acc X T 127 =
      ∑ n : Fin 131072, refRow (rowAt X n.val) (rowAt T n.val) := by
    have h1 : ∑ b ∈ Finset.range 128, blockSum X T b =
        ∑ n : Fin 131072, kernelRow (rowAt X n.val) (rowAt T n.val) :=
      sum_blocks_rows (fun n => kernelRow (rowAt X n) (rowAt T n))
    rw [acc_halves, h1]
    exact Finset.sum_congr rfl (fun n _ =>
      kernelRow_eq_refRow _ _ (rowAt_real X hX n.val) (rowAt_real T hT n.val))
  unfold kernelTotal refTotal
  rw [hsum]

end Cert.SoftCE

end
-- ==== Proof.Finite.lean ====
/-
  The precondition says every input is a real number.

  The printed predicate takes the absolute value of each entry of the two argument arrays, compares it
  with the word of `+∞` by `<`, and takes the conjunction over all entries of both arrays. If the
  conjunction is 1 then every comparison is 1, so every entry `x` has `max x (-x) < +∞`; neither
  infinity satisfies this (`max (+∞) (-∞) = max (-∞) (+∞) = +∞`), so `x` is the coercion of a real.
-/
import proofs.«178073_j34102040330686_2_alg».proof.Defs
import proofs.«178073_j34102040330686_2_alg».proof.Pre_finite_inputs
import Idealize.ShloMosaic.Lib.ReduceAll
import Idealize.ShloMosaic.Lib.ValueIdx
import Idealize.ShloMosaic.PureOps.Ideal

noncomputable section

namespace Cert.SoftCE

open Idealize.ShloMosaic Idealize.SL.Sem

/-- The shape of a scalar has one index. -/
instance : Subsingleton Cert.Pre_finite_inputs.S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value compares below `+∞` is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- If the predicate is all ones on two arrays, every entry of both is a real: the conjunction of the
    two reductions is 1, so each reduction is 1, so each comparison `|x| < +∞` is 1. -/
theorem real_of_pre [hP : Cert.Pre_finite_inputs.Facts]
    (X T : FVec Ideal Cert.Pre_finite_inputs.S131072x1000 .f32)
    (h : Cert.Pre_finite_inputs.fn (F := Ideal) X T = fun _ => 1#1) :
    (∀ i, ∃ r : ℝ, X i = (r : EReal)) ∧ (∀ i, ∃ r : ℝ, T i = (r : EReal)) := by
  have e := congrFun h ValueIdx.ix0
  dsimp only [Cert.Pre_finite_inputs.fn] at e
  obtain ⟨e1, e2⟩ := IntOp.andi_eq_one.1 e
  refine ⟨fun i => ?_, fun i => ?_⟩
  · exact real_of_abs_lt (X i) (Host.reduce_andi_all _ _ _ _ _ e1 i)
  · exact real_of_abs_lt (T i) (Host.reduce_andi_all _ _ _ _ _ e2 i)

/-- The same at the two argument arrays of a memory satisfying the precondition, on every device. -/
theorem real_of_Pre_KernelIdeal [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal)) :=
  real_of_pre _ _ (h c)

end Cert.SoftCE

end
-- ==== Proof.KernelPieces.lean ====
/-
  What one grid point leaves behind, as pure terms of what it loaded.

  The body keeps a 1×1 accumulator. At the first point of a core's 64 points it stores the zero word there first;
  at every point it adds the block's sum of row losses (the payload `k0_pay2`) to what the accumulator holds; at the
  last of the 64 points it also broadcasts the accumulator over the core's 1×8×128 output block (`k0_pay3`).
  So a first point leaves `k0_pay2 x t k0_pay1`, any other point `k0_pay2 x t a` for the accumulator `a` it
  found, and a last point leaves `k0_pay3 (k0_pay2 x t a)` in the output block.
-/
import proofs.«178073_j34102040330686_2_alg».proof.Defs
import proofs.«178073_j34102040330686_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CE

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point leaves in the accumulator what it found there plus the block's sum. -/
theorem acc_B (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : ¬cond0_1 i)
    (x0 : Vec F S1024x1000 .f32) (x1 : Vec F S1024x1000 .f32) (xs0 : Vec F S1x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S1024x1000) hz2, View.ld_unit_zero (S := S1x1) hz2]

/-- So does a last point, -/
theorem acc_C (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 : Vec F S1024x1000 .f32) (x1 : Vec F S1024x1000 .f32) (xs0 : Vec F S1x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S1024x1000) hz2, View.ld_unit_zero (S := S1x1) hz2]

/-- which also broadcasts the new accumulator over the output block. -/
theorem out_C (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 : Vec F S1024x1000 .f32) (x1 : Vec F S1024x1000 .f32) (xs0 : Vec F S1x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x1) _ hz2]
  simp only [View.readAt_eq_ld, harg2.read_unread, harg3.read_unread, harg5.read_unread,
    View.ld_unit_zero (S := S1024x1000) hz2, View.ld_unit_zero (S := S1x1) hz2]

/-- A first point stores the zero word first, so it leaves the block's sum added to that. -/
theorem acc_A (c : Dev nD) (i : grid0.Coords) (arg2 : Memref sig .tc .vmem S1024x1000 .f32) (harg2 : arg2.IsWhole) (arg3 : Memref sig .tc .vmem S1024x1000 .f32) (harg3 : arg3.IsWhole) (arg4 : Memref sig .tc .vmem S1x8x128 .f32) (harg4 : arg4.IsWhole) (arg5 : Memref sig .tc .vmem S1x1 .f32) (harg5 : arg5.IsWhole) (hc0 : cond0_0 i) (hc1 : ¬cond0_1 i)
    (x0 : Vec F S1024x1000 .f32) (x1 : Vec F S1024x1000 .f32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread,
    View.ld_unit_zero (S := S1024x1000) hz2]

end Cert.KernelIdeal.CE

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.KernelReduce.lean ====
/-
  Lane reductions, keepdims columns and the two small payloads, read at the ideal instance.

  A lane sum of a 1024×1000 block is, at row `r`, the sum of that row's 1000 entries; a lane maximum is the fold of
  `max` from `-∞` over them; the sum down a 1024×1 column is the sum of its entries. A vector cast to a column
  holds, at `(i, ·)`, the vector's entry `i`, and the column broadcast along the rows repeats it.
-/
import proofs.«178073_j34102040330686_2_alg».proof.Defs
import proofs.«178073_j34102040330686_2_alg».proof.Proof.Gen.KernelIdeal.Frame
import proofs.«178073_j34102040330686_2_alg».proof.Proof.Spec
import proofs.«178073_j34102040330686_2_alg».proof.Proof.LibKeepdims
import Idealize.ShloMosaic.Lib.ValueIdx
import Idealize.ShloMosaic.Lib.ValueLayout
import Idealize.ShloMosaic.PureOps.Ideal.Laws
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CE

open Cert.KernelIdeal Cert.KernelIdeal.Gen Idealize.ShloMosaic.ValueIdx Cert.SoftCE Cert.Lib.Keepdims
open scoped BigOperators

/-- The word of `-∞` is the bottom of the extended reals. -/
theorem ofBits_ninf : Ideal.ofBits .f32 0xFF800000#32 = (⊥ : EReal) := by
  simp [Ideal.ofBits, Ideal.ieee]

/-! ## The three reductions -/

/-- A lane sum of a block: at row `r`, the sum of the row's 1000 entries. -/
theorem laneSum_apply (x : FVec Ideal S1024x1000 .f32) (r : Fin 1024) :
    multiReduction (F := Ideal) .add [1] S1024 x 0x00000000#32 reduces_S1024x1000_S1024 (.inl rfl) rfl (ix1 r)
      = ∑ k : Fin 1000, x (ix2 r k) := by
  refine (Ideal.multiReduction_add_single x 0x00000000#32 reduces_S1024x1000_S1024 (.inl rfl) rfl (ix1 r)).trans ?_
  refine Finset.sum_congr rfl fun k _ => congrArg x (funext fun a => Fin.ext ?_)
  match a with
  | ⟨0, _⟩ => rfl
  | ⟨1, _⟩ => rfl

/-- A lane maximum of a block: at row `r`, the row's maximum. -/
theorem laneMax_apply (x : FVec Ideal S1024x1000 .f32) (r : Fin 1024) :
    multiReduction (F := Ideal) .maximumf [1] S1024 x 0xFF800000#32 reduces_S1024x1000_S1024 (.inl rfl) rfl (ix1 r)
      = rowMax (fun k => x (ix2 r k)) := by
  refine (Ideal.multiReduction_maximumf_single x 0xFF800000#32 reduces_S1024x1000_S1024 (.inl rfl) rfl (ix1 r)).trans ?_
  show (Finset.univ : Finset (Fin 1000)).fold max (Ideal.ofBits .f32 0xFF800000#32) _
    = (Finset.univ : Finset (Fin 1000)).fold max ⊥ _
  rw [ofBits_ninf]
  refine congrArg (fun f => (Finset.univ : Finset (Fin 1000)).fold max (⊥ : EReal) f) (funext fun k => ?_)
  refine congrArg x (funext fun a => Fin.ext ?_)
  match a with
  | ⟨0, _⟩ => rfl
  | ⟨1, _⟩ => rfl

/-- The sum down a 1024 × 1 column: the sum of its 1024 entries. -/
theorem rowsSum_apply (y : FVec Ideal S1024x1 .f32) :
    multiReduction (F := Ideal) .add [0] S1 y 0x00000000#32 reduces_S1024x1_S1 (.inl rfl) rfl (ix1 (0 : Fin 1))
      = ∑ r : Fin 1024, y (ix2 r (0 : Fin 1)) := by
  refine (Ideal.multiReduction_add_single y 0x00000000#32 reduces_S1024x1_S1 (.inl rfl) rfl (ix1 (0 : Fin 1))).trans ?_
  refine Finset.sum_congr rfl fun r _ => congrArg y (funext fun a => Fin.ext ?_)
  match a with
  | ⟨0, _⟩ => rfl
  | ⟨1, _⟩ => rfl

/-- The zero the first point of a run of 64 stores. -/
theorem pay1_apply (j : S1x1.Idx) : k0_pay1 (F := Ideal) j = 0 := by
  unfold k0_pay1
  rw [shapeCast_self]
  show Ideal.ofBits .f32 0x00000000#32 = 0
  exact Ideal.ofBits_zero_f32

/-- The last point's broadcast: every entry of the 1 × 8 × 128 block is the accumulator. -/
theorem pay3_apply {F : FTy → Type} [FloatOps F] (v : FVec F S1x1 .f32) (a : Fin 1) (b : Fin 8) (c : Fin 128) :
    k0_pay3 v (ix3 a b c) = v (ix2 (0 : Fin 1) (0 : Fin 1)) := by
  unfold k0_pay3
  refine (broadcastTo_apply _ broadcasts_S1x1x1_S1x8x128 (ix3 a b c) (ix3 (0 : Fin 1) (0 : Fin 1) (0 : Fin 1)) fun ax => ?_).trans
    (shapeCast_ab_1ab_apply v shapeCasts_S1x1_S1x1x1 0 0 0)
  match ax with
  | ⟨0, _⟩ => rfl
  | ⟨1, _⟩ => rfl
  | ⟨2, _⟩ => rfl

end Cert.KernelIdeal.CE

end
-- ==== Proof.KernelPayload.lean ====
/-
  The block's contribution, read at the ideal instance.

  For a 1024×1000 block of logits `x` and weights `t` the payload computes, row by row, the maximum `M`, the
  shifted log-sum-exp `L`, the weight sum and the weighted sum of logits, combines them into the row loss
  `(M + L) * ∑ t - ∑ t * x`, adds the 1024 row losses and adds that to the accumulator. Read index by index this is
  `a + ∑_r kernelRow (row r of x) (row r of t)`: every lane reduction is a sum (or a fold of `max`) over the
  row's 1000 coordinates, every keepdims column holds the row's statistic, and its broadcast along the row repeats it.
-/
import proofs.«178073_j34102040330686_2_alg».proof.Defs
import proofs.«178073_j34102040330686_2_alg».proof.Proof.Gen.KernelIdeal.Frame
import proofs.«178073_j34102040330686_2_alg».proof.Proof.KernelReduce
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CE

open Cert.KernelIdeal Cert.KernelIdeal.Gen Idealize.ShloMosaic.ValueIdx Cert.SoftCE Cert.Lib.Keepdims
open scoped BigOperators

/-! ## The payload's stages -/

/-- The exponential and the logarithm of a vector, at an index, are those of its entry. -/
theorem exp_at (v : FVec Ideal S1024x1000 .f32) (i : S1024x1000.Idx) : exp v i = Ideal.exp (v i) := rfl
theorem log_at (v : FVec Ideal S1024x1 .f32) (i : S1024x1.Idx) : log v i = Ideal.log (v i) := rfl

section Stages

variable (x t : FVec Ideal S1024x1000 .f32)

/-- The rows' maxima. -/
def maxVec : FVec Ideal S1024 .f32 :=
  multiReduction (F := Ideal) .maximumf [1] S1024 x 0xFF800000#32 reduces_S1024x1000_S1024 (.inl rfl) rfl

/-- The rows' maxima, as a column. -/
def maxCol : FVec Ideal S1024x1 .f32 := shapeCast S1024x1 (maxVec x) shapeCasts_S1024_S1024x1

/-- The block shifted by its rows' maxima. -/
def shifted : FVec Ideal S1024x1000 .f32 := subf x (broadcastTo S1024x1000 (maxCol x) broadcasts_S1024x1_S1024x1000)

/-- The rows' sums of exponentials of the shifted block. -/
def expSumVec : FVec Ideal S1024 .f32 :=
  multiReduction (F := Ideal) .add [1] S1024 (exp (shifted x)) 0x00000000#32 reduces_S1024x1000_S1024 (.inl rfl) rfl

/-- The rows' shifted log-sum-exp, as a column. -/
def lseCol : FVec Ideal S1024x1 .f32 := log (shapeCast S1024x1 (expSumVec x) shapeCasts_S1024_S1024x1)

/-- The rows' weight sums. -/
def wVec : FVec Ideal S1024 .f32 :=
  multiReduction (F := Ideal) .add [1] S1024 t 0x00000000#32 reduces_S1024x1000_S1024 (.inl rfl) rfl
/-- The rows' weight sums, as a column. -/
def wCol : FVec Ideal S1024x1 .f32 := shapeCast S1024x1 (wVec t) shapeCasts_S1024_S1024x1

/-- The rows' weighted sums of logits. -/
def wxVec : FVec Ideal S1024 .f32 :=
  multiReduction (F := Ideal) .add [1] S1024 (mulf t x) 0x00000000#32 reduces_S1024x1000_S1024 (.inl rfl) rfl
/-- The rows' weighted sums of logits, as a column. -/
def wxCol : FVec Ideal S1024x1 .f32 := shapeCast S1024x1 (wxVec x t) shapeCasts_S1024_S1024x1

/-- The rows' losses, as a column. -/
def lossCol : FVec Ideal S1024x1 .f32 :=
  subf (mulf (addf (maxCol x) (lseCol x)) (wCol t)) (wxCol x t)

/-- The sum of the rows' losses. -/
def lossSumVec : FVec Ideal S1 .f32 :=
  multiReduction (F := Ideal) .add [0] S1 (lossCol x t) 0x00000000#32 reduces_S1024x1_S1 (.inl rfl) rfl

/-- The block's sum of row losses, as a 1 × 1 array. -/
def blockTotal : FVec Ideal S1x1 .f32 := shapeCast S1x1 (lossSumVec x t) shapeCasts_S1_S1x1

/-- The payload is these stages composed. -/
theorem pay2_eq (a : FVec Ideal S1x1 .f32) :
    k0_pay2 (F := Ideal) x t a = shapeCast S1x1 (addf a (blockTotal x t)) shapeCasts_S1x1_S1x1 := by
  unfold k0_pay2 blockTotal lossSumVec lossCol wxCol wxVec wCol wVec lseCol expSumVec shifted maxCol maxVec
  exact rfl

theorem maxCol_apply (r : Fin 1024) (u : Fin 1) : maxCol x (ix2 r u) = rowMax (fun k => x (ix2 r k)) :=
  (col_apply (maxVec x) shapeCasts_S1024_S1024x1 r u).trans (laneMax_apply x r)

/-- An entry of the shifted block: the logit minus its row's maximum. -/
theorem shifted_apply (r : Fin 1024) (k : Fin 1000) :
    shifted x (ix2 r k) = x (ix2 r k) - rowMax (fun k => x (ix2 r k)) :=
  congrArg (fun z : EReal => x (ix2 r k) - z)
    ((bcastCol_apply (maxCol x) broadcasts_S1024x1_S1024x1000 r k).trans (maxCol_apply x r 0))

theorem expSumVec_apply (r : Fin 1024) :
    expSumVec x (ix1 r) = ∑ k : Fin 1000, Ideal.exp (x (ix2 r k) - rowMax (fun k => x (ix2 r k))) :=
  (laneSum_apply (exp (shifted x)) r).trans
    (Finset.sum_congr rfl fun k _ => (exp_at (shifted x) (ix2 r k)).trans (congrArg Ideal.exp (shifted_apply x r k)))

theorem lseCol_apply (r : Fin 1024) (u : Fin 1) : lseCol x (ix2 r u) = rowLse (fun k => x (ix2 r k)) :=
  (log_at (shapeCast S1024x1 (expSumVec x) shapeCasts_S1024_S1024x1) (ix2 r u)).trans
    (congrArg Ideal.log ((col_apply (expSumVec x) shapeCasts_S1024_S1024x1 r u).trans (expSumVec_apply x r)))

theorem wCol_apply (r : Fin 1024) (u : Fin 1) : wCol t (ix2 r u) = ∑ k : Fin 1000, t (ix2 r k) :=
  (col_apply (wVec t) shapeCasts_S1024_S1024x1 r u).trans (laneSum_apply t r)

theorem wxCol_apply (r : Fin 1024) (u : Fin 1) : wxCol x t (ix2 r u) = ∑ k : Fin 1000, t (ix2 r k) * x (ix2 r k) :=
  (col_apply (wxVec x t) shapeCasts_S1024_S1024x1 r u).trans (laneSum_apply (mulf t x) r)

/-- The row loss with the weights distributed, spelt out. -/
theorem kernelRow_eq (f g : Fin 1000 → EReal) :
    kernelRow f g = (rowMax f + rowLse f) * (∑ k : Fin 1000, g k) - ∑ k : Fin 1000, g k * f k := rfl

theorem lossCol_val (r : Fin 1024) (u : Fin 1) :
    lossCol x t (ix2 r u)
      = (rowMax (fun k => x (ix2 r k)) + rowLse (fun k => x (ix2 r k))) * (∑ k : Fin 1000, t (ix2 r k))
          - ∑ k : Fin 1000, t (ix2 r k) * x (ix2 r k) := by
  unfold lossCol
  rw [subf_apply, mulf_apply, addf_apply, maxCol_apply, lseCol_apply, wCol_apply, wxCol_apply]

theorem lossCol_apply (r : Fin 1024) (u : Fin 1) :
    lossCol x t (ix2 r u) = kernelRow (fun k => x (ix2 r k)) (fun k => t (ix2 r k)) :=
  (lossCol_val x t r u).trans (kernelRow_eq (fun k => x (ix2 r k)) (fun k => t (ix2 r k))).symm

theorem blockTotal_apply (u v : Fin 1) :
    blockTotal x t (ix2 u v) = ∑ r : Fin 1024, kernelRow (fun k => x (ix2 r k)) (fun k => t (ix2 r k)) := by
  obtain rfl : v = 0 := Subsingleton.elim _ _
  refine (shapeCast_a_1a_apply (lossSumVec x t) shapeCasts_S1_S1x1 u (0 : Fin 1)).trans ?_
  exact (rowsSum_apply (lossCol x t)).trans (Finset.sum_congr rfl fun r _ => lossCol_apply x t r 0)

/-- The accumulator after a point: what it held before, plus the sum of the block's 1024 row losses. -/
theorem pay2_apply (a : FVec Ideal S1x1 .f32) (u v : Fin 1) :
    k0_pay2 (F := Ideal) x t a (ix2 u v)
      = a (ix2 u v) + ∑ r : Fin 1024, kernelRow (fun k => x (ix2 r k)) (fun k => t (ix2 r k)) := by
  rw [pay2_eq, shapeCast_self, addf_apply, blockTotal_apply]

end Stages

end Cert.KernelIdeal.CE

end
-- ==== Proof.KernelBlocks.lean ====
/-
  Where a grid point's input blocks sit in the argument arrays.

  Point `t` of the 2 × 64 grid (numbered row-major, so `t = 64 * core + j`) fetches block `(64 * core + j, 0)`
  of each argument, that is block `(t, 0)`: rows `1024 t` to `1024 t + 1023`, all 1000 columns. So row `r` of the
  block is row `1024 t + r` of the array.
-/
import proofs.«178073_j34102040330686_2_alg».proof.Defs
import proofs.«178073_j34102040330686_2_alg».proof.Proof.Gen.KernelIdeal.Frame
import proofs.«178073_j34102040330686_2_alg».proof.Proof.Spec
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CE

open Cert.KernelIdeal Cert.KernelIdeal.Gen Idealize.ShloMosaic.ValueIdx Cert.SoftCE

variable {F : FTy → Type} [FloatOps F]
variable (m : (ℓ : Loc nD τ sig) → Buf (Elt F) ℓ)

/-- Both index maps send point `t` to block `(t, 0)`: decided over the grid. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

theorem point_lt (t : Fin cfg0.N) : t.val < 128 := lt_of_lt_of_eq t.isLt (show cfg0.N = 128 from N_0)

/-- Entry `(r, k)` of the first argument's block at point `t` is entry `(1024 t + r, k)` of the array. -/
theorem iblk0_apply (c : Dev nD) (t : Fin cfg0.N) (r : Fin 1024) (k : Fin 1000) (h : t.val * 1024 + r.val < 131072) :
    (iblk m c 0 t : Vec F S1024x1000 .f32) (ix2 r k) = V m c main_arg0 (ix2 ⟨t.val * 1024 + r.val, h⟩ k) := by
  unfold iblk
  rw [View.read_apply]
  show V m c main_arg0 _ = V m c main_arg0 _
  congr 1
  funext a
  apply Fin.ext
  match a with
  | ⟨0, _⟩ => show win0_0.index t 0 * 1024 + 1 * r.val = t.val * 1024 + r.val; rw [(index0 t).1]; omega
  | ⟨1, _⟩ => show win0_0.index t 1 * 1000 + 1 * k.val = k.val; rw [(index0 t).2]; omega

/-- The same for the second argument. -/
theorem iblk1_apply (c : Dev nD) (t : Fin cfg0.N) (r : Fin 1024) (k : Fin 1000) (h : t.val * 1024 + r.val < 131072) :
    (iblk m c 1 t : Vec F S1024x1000 .f32) (ix2 r k) = V m c main_arg1 (ix2 ⟨t.val * 1024 + r.val, h⟩ k) := by
  unfold iblk
  rw [View.read_apply]
  show V m c main_arg1 _ = V m c main_arg1 _
  congr 1
  funext a
  apply Fin.ext
  match a with
  | ⟨0, _⟩ => show win0_1.index t 0 * 1024 + 1 * r.val = t.val * 1024 + r.val; rw [(index1 t).1]; omega
  | ⟨1, _⟩ => show win0_1.index t 1 * 1000 + 1 * k.val = k.val; rw [(index1 t).2]; omega

end Cert.KernelIdeal.CE

/-! At the ideal instance the argument arrays are arrays of extended reals, and a block's row is a row of them. -/

namespace Cert.KernelIdeal.CE

open Cert.KernelIdeal Cert.KernelIdeal.Gen Idealize.ShloMosaic.ValueIdx Cert.SoftCE

variable (m : (ℓ : Loc nD τ sig) → Buf (Elt Ideal) ℓ)

/-- The logits as the region finds them. -/
abbrev argX (c : Dev nD) : Arr := V m c main_arg0
/-- The weights as the region finds them. -/
abbrev argT (c : Dev nD) : Arr := V m c main_arg1

theorem row0 (c : Dev nD) (t : Fin cfg0.N) (r : Fin 1024) :
    (fun k : Fin 1000 => (iblk m c 0 t : Vec Ideal S1024x1000 .f32) (ix2 r k)) = rowAt (argX m c) (t.val * 1024 + r.val) := by
  have hN := point_lt t
  have h : t.val * 1024 + r.val < 131072 := by have := r.isLt; omega
  rw [rowAt_of_lt _ h]
  funext k
  exact iblk0_apply m c t r k h

theorem row1 (c : Dev nD) (t : Fin cfg0.N) (r : Fin 1024) :
    (fun k : Fin 1000 => (iblk m c 1 t : Vec Ideal S1024x1000 .f32) (ix2 r k)) = rowAt (argT m c) (t.val * 1024 + r.val) := by
  have hN := point_lt t
  have h : t.val * 1024 + r.val < 131072 := by have := r.isLt; omega
  rw [rowAt_of_lt _ h]
  funext k
  exact iblk1_apply m c t r k h

end Cert.KernelIdeal.CE

end
-- ==== Proof.KernelAcc.lean ====
/-
  What the accumulator holds after each grid point.

  Point `t` adds the sum of the row losses of rows `1024 t … 1024 t + 1023` of the argument arrays (`blockSum … t`) to
  the accumulator; the points whose number is a multiple of 64 (the first point of each core's run) restart it from
  zero. By induction on the point, after point `n` the accumulator holds `acc … n`.
-/
import proofs.«178073_j34102040330686_2_alg».proof.Defs
import proofs.«178073_j34102040330686_2_alg».proof.Proof.Gen.KernelIdeal.Frame
import proofs.«178073_j34102040330686_2_alg».proof.Proof.KernelPieces
import proofs.«178073_j34102040330686_2_alg».proof.Proof.KernelPayload
import proofs.«178073_j34102040330686_2_alg».proof.Proof.KernelBlocks
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CE

open Cert.KernelIdeal Cert.KernelIdeal.Gen Idealize.ShloMosaic.ValueIdx Cert.SoftCE
open scoped BigOperators

variable (m : (ℓ : Loc nD τ sig) → Buf (Elt Ideal) ℓ)

/-- The accumulator's one index. -/
abbrev o00 : S1x1.Idx := ix2 (0 : Fin 1) (0 : Fin 1)

theorem acc_succ (X T : Arr) (n : ℕ) :
    acc X T (n + 1) = if (n + 1) % 64 = 0 then blockSum X T (n + 1) else acc X T n + blockSum X T (n + 1) := rfl

/-- The row losses of point `t`'s two blocks add up to the block sum of block `t`. -/
theorem block_eq (c : Dev nD) (t : Fin cfg0.N) :
    (∑ r : Fin 1024, kernelRow (fun k => (iblk m c 0 t : Vec Ideal S1024x1000 .f32) (ix2 r k))
        (fun k => (iblk m c 1 t : Vec Ideal S1024x1000 .f32) (ix2 r k)))
      = blockSum (argX m c) (argT m c) t.val := by
  unfold blockSum
  refine Finset.sum_congr rfl fun r _ => ?_
  rw [row0 m c t r, row1 m c t r]

/-- A restarting point leaves the block's sum. -/
theorem accAt_A (c : Dev nD) (t : Fin cfg0.N) (h0 : t.val % 64 = 0) (h1 : ¬t.val % 64 = 63) :
    (outsAt0 m c t.val t.isLt).2 o00 = blockSum (argX m c) (argT m c) t.val := by
  rw [outsAt0_A m c t h0 h1]
  dsimp only
  refine (congrFun (acc_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) o00).trans ?_
  refine (pay2_apply (iblk m c 0 t) (iblk m c 1 t) k0_pay1 0 0).trans ?_
  rw [pay1_apply, zero_add]
  exact block_eq m c t

/-- A middle point adds the block's sum to what the point before left. -/
theorem accAt_B (c : Dev nD) (t : Fin cfg0.N) (h0 : ¬t.val % 64 = 0) (h1 : ¬t.val % 64 = 63) :
    (outsAt0 m c t.val t.isLt).2 o00
      = (outsAt0 m c (t.val - 1) (Nat.lt_of_le_of_lt (Nat.sub_le _ _) t.isLt)).2 o00 + blockSum (argX m c) (argT m c) t.val := by
  rw [outsAt0_B m c t h0 h1]
  dsimp only
  refine (congrFun (acc_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2) o00).trans ?_
  refine (pay2_apply (iblk m c 0 t) (iblk m c 1 t) (outsAt0 m c (t.val - 1) (Nat.lt_of_le_of_lt (Nat.sub_le _ _) t.isLt)).2 0 0).trans ?_
  rw [block_eq m c t]

/-- So does a last point. -/
theorem accAt_C (c : Dev nD) (t : Fin cfg0.N) (h0 : ¬t.val % 64 = 0) (h1 : t.val % 64 = 63) :
    (outsAt0 m c t.val t.isLt).2 o00
      = (outsAt0 m c (t.val - 1) (Nat.lt_of_le_of_lt (Nat.sub_le _ _) t.isLt)).2 o00 + blockSum (argX m c) (argT m c) t.val := by
  rw [outsAt0_C m c t h0 h1]
  dsimp only
  refine (congrFun (acc_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2) o00).trans ?_
  refine (pay2_apply (iblk m c 0 t) (iblk m c 1 t) (outsAt0 m c (t.val - 1) (Nat.lt_of_le_of_lt (Nat.sub_le _ _) t.isLt)).2 0 0).trans ?_
  rw [block_eq m c t]

/-- After point `n` the accumulator holds `acc … n`. -/
theorem acc_inv (c : Dev nD) : ∀ (n : ℕ) (hn : n < cfg0.N), (outsAt0 m c n hn).2 o00 = acc (argX m c) (argT m c) n
  | 0, hn => accAt_A m c ⟨0, hn⟩ (Nat.zero_mod _) (by show ¬((0 : ℕ) % 64 = 63); decide)
  | n + 1, hn => by
    have hN : n + 1 < 128 := lt_of_lt_of_eq hn (show cfg0.N = 128 from N_0)
    rw [acc_succ]
    by_cases h0 : (n + 1) % 64 = 0
    · rw [if_pos h0]
      exact accAt_A m c ⟨n + 1, hn⟩ h0 (by show ¬(n + 1) % 64 = 63; omega)
    · rw [if_neg h0]
      by_cases h1 : (n + 1) % 64 = 63
      · refine (accAt_C m c ⟨n + 1, hn⟩ h0 h1).trans ?_
        show (outsAt0 m c n _).2 o00 + _ = _
        rw [acc_inv c n]
      · refine (accAt_B m c ⟨n + 1, hn⟩ h0 h1).trans ?_
        show (outsAt0 m c n _).2 o00 + _ = _
        rw [acc_inv c n]

end Cert.KernelIdeal.CE

end
-- ==== Proof.KernelFinal.lean ====
/-
  The output array after the run.

  Only the last point of each core's 64 points writes the output back: point `64 q + 63` writes block `(q, 0, 0)`, the
  whole 1×8×128 slab `q`, every entry of which is the accumulator at that moment, `acc … (64 q + 63)`. The two slabs
  cover the 2×8×128 array, so after the run entry `(q, ·, ·)` of the array is `acc … (64 q + 63)`.
-/
import proofs.«178073_j34102040330686_2_alg».proof.Defs
import proofs.«178073_j34102040330686_2_alg».proof.Proof.Gen.KernelIdeal.Frame
import proofs.«178073_j34102040330686_2_alg».proof.Proof.KernelAcc
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CE

open Cert.KernelIdeal Cert.KernelIdeal.Gen Idealize.ShloMosaic.ValueIdx Cert.SoftCE

variable (m : (ℓ : Loc nD τ sig) → Buf (Elt Ideal) ℓ)

/-- The array the run leaves: slab `q` filled with the accumulator after point `64 q + 63`. -/
def outArr (X T : Arr) : FVec Ideal S2x8x128 .f32 := fun i => acc X T (64 * (i 0).val + 63)

/-- The output's index map sends point `t` to block `(t / 64, 0, 0)`: decided over the grid. -/
theorem index2 : ∀ t : Fin cfg0.N, win0_2.index t 0 = t.val / 64 ∧ win0_2.index t 1 = 0 ∧ win0_2.index t 2 = 0 :=
  (by decide +kernel : ∀ t : Fin grid0.N, win0_2.index t 0 = t.val / 64 ∧ win0_2.index t 1 = 0 ∧ win0_2.index t 2 = 0)

/-- Every entry of the broadcast block is the accumulator. -/
theorem pay3_at (v : FVec Ideal S1x1 .f32) (j : S1x8x128.Idx) : k0_pay3 (F := Ideal) v j = v o00 := by
  rw [eq_ix3 j]
  exact pay3_apply v (j 0) (j 1) (j 2)

/-- At a last point the output block is the broadcast of the accumulator the point leaves. -/
theorem out_last (c : Dev nD) (t : Fin cfg0.N) (h0 : ¬t.val % 64 = 0) (h1 : t.val % 64 = 63) :
    (outsAt0 m c t.val t.isLt).1 = k0_pay3 (F := Ideal) (outsAt0 m c t.val t.isLt).2 := by
  rw [outsAt0_C m c t h0 h1]
  dsimp only
  rw [out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2,
    acc_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2]

/-- What a writing point writes back is its slab of `outArr`. -/
theorem flushed2_eq (c : Dev nD) (t : Fin cfg0.N) (hf : (cfg0.win 2).flush t = true) :
    (dats m 0 c).flushed 2 t = ((cfg0.win 2).blk t).view.read (Elt Ideal) (outArr (argX m c) (argT m c)) := by
  have h63 : t.val % 64 = 63 := (flush0_2 t).mp hf
  have h0 : ¬t.val % 64 = 0 := by omega
  have hN := point_lt t
  show (cfg0.win 2).cut (grid0.coords t) ((dats m 0 c).after 2 t) = _
  rw [after0_2, out_last m c t h0 h63]
  funext j
  show k0_pay3 (F := Ideal) (outsAt0 m c t.val t.isLt).2 j = outArr (argX m c) (argT m c) (((cfg0.win 2).blk t).view.emb j)
  refine (pay3_at _ j).trans ?_
  rw [acc_inv m c t.val t.isLt]
  show acc (argX m c) (argT m c) t.val = acc (argX m c) (argT m c) (64 * (win0_2.index t 0 * 1 + 1 * (j 0).val) + 63)
  have hj : (j 0).val < 1 := (j 0).isLt
  rw [(index2 t).1]
  congr 1
  omega

/-- An index of the array is in point `t`'s block iff each coordinate is in the block's range on its axis. -/
theorem mem_blk2 (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- Slab `q` is written back by point `64 q + 63`. -/
theorem cover2 (i : S2x8x128.Idx) : ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hN : cfg0.N = 128 := N_0
  have hlt : 64 * (i 0).val + 63 < cfg0.N := by rw [hN]; omega
  obtain ⟨e0, e1, e2⟩ := index2 ⟨64 * (i 0).val + 63, hlt⟩
  refine ⟨⟨64 * (i 0).val + 63, hlt⟩, (flush0_2 _).mpr (by show (64 * (i 0).val + 63) % 64 = 63; omega), ?_⟩
  rw [mem_blk2]
  intro a
  match a with
  | ⟨0, _⟩ =>
    show win0_2.index ⟨64 * (i 0).val + 63, hlt⟩ 0 * 1 ≤ (i 0).val ∧ (i 0).val < win0_2.index ⟨64 * (i 0).val + 63, hlt⟩ 0 * 1 + 1
    rw [e0]; show (64 * (i 0).val + 63) / 64 * 1 ≤ (i 0).val ∧ (i 0).val < (64 * (i 0).val + 63) / 64 * 1 + 1; omega
  | ⟨1, _⟩ =>
    show win0_2.index ⟨64 * (i 0).val + 63, hlt⟩ 1 * 8 ≤ (i 1).val ∧ (i 1).val < win0_2.index ⟨64 * (i 0).val + 63, hlt⟩ 1 * 8 + 8
    rw [e1]; omega
  | ⟨2, _⟩ =>
    show win0_2.index ⟨64 * (i 0).val + 63, hlt⟩ 2 * 128 ≤ (i 2).val ∧ (i 2).val < win0_2.index ⟨64 * (i 0).val + 63, hlt⟩ 2 * 128 + 128
    rw [e2]; omega

/-- The output array after the run. -/
theorem final2 (c : Dev nD) : (dats m 0 c).arrAt 2 cfg0.N = outArr (argX m c) (argT m c) :=
  (dats m 0 c).arrAt_eq_of_cover 2 (outArr (argX m c) (argT m c)) (flushed2_eq m c) cover2

end Cert.KernelIdeal.CE

end
-- ==== Proof.KernelTail.lean ====
/-
  The host operations after the region: the program's result from the output array.

  The region leaves an output array `G` of shape [2, 8, 128]. The six host operations after it take the
  slice `G[0:2, 0:1, 0:1]`, reshape it to [2], add its two entries starting from the word of `0.0`, and
  divide by the word of `131072.0`. Read at the extended reals the result is
  `(G(0,0,0) + G(1,0,0)) / 131072`: the reshaped slice at `k` is `G(k,0,0)` (row-major positions agree and
  the slice has offset 0 on every axis), the sum over a rank-1 index set of size 2 is the sum of the two
  entries, and the initial word denotes 0. With `G(k,0,0)` the accumulator after block `64 k + 63` this is
  the mean `kernelTotal` of the specification.
-/
import proofs.«178073_j34102040330686_2_alg».proof.Defs
import proofs.«178073_j34102040330686_2_alg».proof.Proof.Gen.KernelIdeal.Frame
import proofs.«178073_j34102040330686_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.CE

open Cert.KernelIdeal Cert.KernelIdeal.Gen Idealize.ShloMosaic.ValueIdx
open Idealize.ShloMosaic Idealize.ShloMosaic.TcCoe Idealize.SL.Sem

variable (m : (ℓ : Loc nD τ sig) → Buf (Elt Ideal) ℓ)

/-! ### The arithmetic of the tail -/

/-- A rank-1 index is its one coordinate. -/
def idx1Equiv {n : Nat} : Fin n ≃ (⟨1, ![n]⟩ : Shape).Idx where
  toFun := ix1
  invFun j := j 0
  left_inv k := rfl
  right_inv j := (eq_ix1 j).symm

/-- A sum over a rank-1 index set is the sum over the coordinate. -/
theorem sum_idx1 {M : Type*} [AddCommMonoid M] {n : Nat} (f : (⟨1, ![n]⟩ : Shape).Idx → M) :
    ∑ i, f i = ∑ k : Fin n, f (ix1 k) :=
  (Equiv.sum_comp idx1Equiv f).symm

/-- The slice with zero offsets, reshaped from [2,1,1] to [2], read at `k`: the array at `(k, 0, 0)`. -/
theorem slice_reshape_apply (hs : S2x8x128.Slices ![0, 0, 0] S2x1x1) (hc : S2x1x1.ShapeCasts S2)
    (G : FVec Ideal S2x8x128 .f32) (k : Fin 2) :
    shapeCast S2 (extractStridedSlice S2x1x1 ![0, 0, 0] G hs) hc (ix1 k) = G (ix3 k (0 : Fin 8) (0 : Fin 128)) := by
  refine (shapeCast_apply _ hc (ix1 k) (ix3 k (0 : Fin 1) (0 : Fin 1)) ?_).trans ?_
  · rw [Shape.rowMajor_val_three, Shape.rowMajor_val_one]
    show (k.val * 1 + 0) * 1 + 0 = k.val
    omega
  · refine extractStridedSlice_apply _ G hs _ (ix3 k (0 : Fin 8) (0 : Fin 128)) fun a => ?_
    match a with
    | ⟨0, _⟩ => show k.val = 0 + k.val; omega
    | ⟨1, _⟩ => rfl
    | ⟨2, _⟩ => rfl

/-- The host tail on an array `G` of shape [2,8,128]: `(G(0,0,0) + G(1,0,0)) / 131072`. The sum over
    the one axis of the reshaped slice starts from the word of `0.0`, which is 0. -/
theorem tail_val (hs : S2x8x128.Slices ![0, 0, 0] S2x1x1) (hc : S2x1x1.ShapeCasts S2) (hr : S2.ReducesTo [0] S_)
    (hu : 0 < S_.numel) (G : FVec Ideal S2x8x128 .f32) :
    Host.divf (Host.reduceAdd (shapeCast S2 (extractStridedSlice S2x1x1 ![0, 0, 0] G hs) hc)
        (constant S_ .f32 0x00000000#32) hr hu) (constant S_ .f32 0x48000000#32)
      = fun _ => Ideal.div (G (ix3 (0 : Fin 2) (0 : Fin 8) (0 : Fin 128)) + G (ix3 (1 : Fin 2) (0 : Fin 8) (0 : Fin 128)))
          (Ideal.ofBits .f32 0x48000000#32) := by
  funext i
  show Ideal.div (Ideal.hostReduceAdd hr (shapeCast S2 (extractStridedSlice S2x1x1 ![0, 0, 0] G hs) hc)
      (Ideal.ofBits .f32 0x00000000#32) i) (Ideal.ofBits .f32 0x48000000#32) = _
  rw [Ideal.hostReduceAdd_total hr (fun b => b.elim0), Ideal.ofBits_zero_f32, zero_add]
  congr 1
  refine (sum_idx1 _).trans ?_
  rw [Fin.sum_univ_two, slice_reshape_apply, slice_reshape_apply]

/-! ### The result of the tail -/

/-- The program's result after the host operations, from the final contents `G` of the output array. -/
theorem tail_eq (c : Dev nD) (G : FVec Ideal S2x8x128 .f32) (hfinal : (dats m 0 c).arrAt 2 cfg0.N = G) :
    Pipeline.afterTail₀ cfgs (dats m) 0 (V0 m) [hostOps1] c main_v4
      = fun _ => Ideal.div (G (ix3 (0 : Fin 2) (0 : Fin 8) (0 : Fin 128)) + G (ix3 (1 : Fin 2) (0 : Fin 8) (0 : Fin 128)))
          (Ideal.ofBits .f32 0x48000000#32) := by
  unfold Pipeline.afterTail₀
  show StableHlo.after hostOps1 _ (Proc.devRef .tc main_v4) = _
  after_results
  have hG : Pipeline.withArrays (cfgs 0).spec c (V0 m c) (fun w => (dats m 0 c).arrAt w (cfgs 0).N)
      (Proc.tc.devRef main_v0) = G :=
    (Pipeline.withArrays_arr spec0 launch0.win.arr_inj c _ _ 2).trans hfinal
  rw [hG]
  exact tail_val _ _ _ _ G

/-- With the output array holding the two accumulated halves, the result is the specification's mean. -/
theorem tail_total (c : Dev nD) (X T : Cert.SoftCE.Arr)
    (hfinal : (dats m 0 c).arrAt 2 cfg0.N = (fun i : S2x8x128.Idx => Cert.SoftCE.acc X T (64 * (i 0).val + 63))) :
    Pipeline.afterTail₀ cfgs (dats m) 0 (V0 m) [hostOps1] c main_v4 = fun _ => Cert.SoftCE.kernelTotal X T := by
  refine (tail_eq m c _ hfinal).trans ?_
  funext _
  unfold Cert.SoftCE.kernelTotal
  rfl

end Cert.KernelIdeal.CE

end
-- ==== Proof.KernelRun.lean ====
/-
  The kernel program's run, from the frame run and the final contents of its output array.

  The frame run ends with every array of the pipeline at what the proof data compute and every other
  buffer at what the host operations after the region leave. Given that the output array ends holding the
  two accumulated halves — entry `(k, ·, ·)` the accumulator after block `64 k + 63` — the result buffer
  holds the specification's mean of the row losses, and the two argument arrays, which the pipeline only
  reads, hold their launch contents.
-/
import proofs.«178073_j34102040330686_2_alg».proof.Proof.KernelTail
import proofs.«178073_j34102040330686_2_alg».proof.Proof.Gen.KernelIdeal.Frame
import proofs.«178073_j34102040330686_2_alg».proof.Proof.Spec

set_option maxRecDepth 16384

noncomputable section

namespace Cert.KernelIdeal.CE

open Cert.KernelIdeal Cert.KernelIdeal.Gen Cert.SoftCE
open Idealize.ShloMosaic Idealize.ShloMosaic.TcCoe Idealize.SL.Sem

/-- The result buffer is unscoped and is no window's array. -/
theorem main_v4_mem_rest : main_v4 ∈ Pipeline.restRefs sig (cfgs 0).spec :=
  Pipeline.mem_restRefs_of main_v4 rfl (by decide)

/-- The run of the kernel program, given the final contents of the output array. -/
theorem run_of_final (m : (ℓ : Loc nD τ sig) → Buf (Elt Ideal) ℓ) (ρ : Dev nD → PrngReg)
    (hfin : ∀ c : Dev nD, (dats m 0 c).arrAt 2 cfg0.N
      = fun i : S2x8x128.Idx => acc (V m c main_arg0) (V m c main_arg1) (64 * (i 0).val + 63)) :
    θ_run defs (onTc (τ := τ) (main (F := Ideal))) ⟨m, fun _ => 0, ρ⟩ fun r => ∀ c : Dev nD,
      r.2.mem ((c.tc : Thread nD τ).loc main_v4)
          = (fun _ => kernelTotal (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 main_v4_mem_rest).trans (tail_total m c _ _ (hfin c)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.CE

end
-- ==== Proof.RefValue.lean ====
/-
  The value the reference program leaves in its result buffer, as a function of its two argument arrays,
  built in the stages of a soft-label cross entropy: the row maximum, the logits shifted by it, the
  logarithm of the sum of their exponentials, the log-softmax, the row loss, and the mean over the rows.
-/
import proofs.«178073_j34102040330686_2_alg».proof.ReferenceIdeal
import proofs.«178073_j34102040330686_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Facts₀ Idealize.ShloMosaic

variable {F : FTy → Type} [FloatOps F] [Cert.ReferenceIdeal.Facts]

/-- The maximum of each row: the fold of the maximum over the row from `-∞`, then once more the maximum with `-∞`. -/
def rowMaxStage (x0 : (⟨S131072x1000, .f32⟩ : BufTy).Contents (Elt F)) : (⟨S131072, .f32⟩ : BufTy).Contents (Elt F) :=
  maximumf (broadcastInDim S131072 ![] bcast_S_S131072 (constant S_ .f32 0xFF800000#32))
    (Host.reduce FloatOps.maximumf x0 (constant S_ .f32 0xFF800000#32) reducesTo_S131072x1000_S131072_d1 h_S_)

/-- Each entry minus its row's maximum. -/
def shiftedStage (x0 : (⟨S131072x1000, .f32⟩ : BufTy).Contents (Elt F)) : (⟨S131072x1000, .f32⟩ : BufTy).Contents (Elt F) :=
  subf x0 (broadcastInDim S131072x1000 ![0, 1] bcast_S131072x1_S131072x1000_0_1
    (broadcastInDim S131072x1 ![0] bcast_S131072_S131072x1_0 (rowMaxStage x0)))

/-- The logarithm of each row's sum of the exponentials of the shifted entries, kept as a column. -/
def lseStage (x0 : (⟨S131072x1000, .f32⟩ : BufTy).Contents (Elt F)) : (⟨S131072x1, .f32⟩ : BufTy).Contents (Elt F) :=
  Host.log (broadcastInDim S131072x1 ![0] bcast_S131072_S131072x1_0
    (Host.reduceAdd (Host.exp (shiftedStage x0)) (constant S_ .f32 0x00000000#32) reducesTo_S131072x1000_S131072_d1 h_S_))

/-- The log-softmax: each shifted entry minus its row's log-sum-exp. -/
def logSoftmaxStage (x0 : (⟨S131072x1000, .f32⟩ : BufTy).Contents (Elt F)) : (⟨S131072x1000, .f32⟩ : BufTy).Contents (Elt F) :=
  subf (shiftedStage x0) (broadcastInDim S131072x1000 ![0, 1] bcast_S131072x1_S131072x1000_0_1 (lseStage x0))

/-- Each row's loss: minus the sum over the row of the weight times the log-softmax. -/
def rowLossStage (x0 x1 : (⟨S131072x1000, .f32⟩ : BufTy).Contents (Elt F)) : (⟨S131072, .f32⟩ : BufTy).Contents (Elt F) :=
  Host.negf (Host.reduceAdd (mulf x1 (logSoftmaxStage x0)) (constant S_ .f32 0x00000000#32)
    reducesTo_S131072x1000_S131072_d1 h_S_)

/-- The result: the sum of the row losses divided by the number of rows. -/
def refTerm (x0 x1 : (⟨S131072x1000, .f32⟩ : BufTy).Contents (Elt F)) : (⟨S_, .f32⟩ : BufTy).Contents (Elt F) :=
  Host.divf (Host.reduceAdd (rowLossStage x0 x1) (constant S_ .f32 0x00000000#32) reducesTo_S131072_S_d0 h_S_)
    (constant S_ .f32 0x48000000#32)

/-! ## The value at the ideal instance

At the extended reals every operation is exact, so the stages read, index by index, as the row statistics of
`Cert.SoftCE`: the row maximum stage at row `n` is `rowMax` of row `n`, the log-sum-exp stage is `rowLse`, the
row loss stage is `refRow`, and the result is `refTotal`. -/

section Value

open Idealize.ShloMosaic.ValueIdx
open scoped BigOperators

variable {α : Type}

/-- The word `0xFF800000` denotes `-∞`. -/
theorem ofBits_negInf : Ideal.ofBits .f32 0xFF800000#32 = ⊥ := by simp [Ideal.ofBits, Ideal.ieee]

/-- A scalar broadcast along the rows reads the scalar. -/
theorem bcast_scalar_apply (c : S_.Idx → α) (j : S131072.Idx) :
    broadcastInDim S131072 ![] bcast_S_S131072 c j = c ix0 :=
  broadcastInDim_apply _ bcast_S_S131072 c j ix0 (fun a => a.elim0)

/-- A per-row value laid out as a column reads, at row `n`, the value of row `n`. -/
theorem bcast_col_apply (y : S131072.Idx → α) (n : Fin 131072) (c : Fin 1) :
    broadcastInDim S131072x1 ![0] bcast_S131072_S131072x1_0 y (ix2 n c) = y (ix1 n) :=
  broadcastInDim_apply _ bcast_S131072_S131072x1_0 y (ix2 n c) (ix1 n) (fun a => match a with
    | ⟨0, _⟩ => by show n.val = if (131072 : Nat) = 1 then 0 else n.val; rw [if_neg (by decide)])

/-- A column broadcast over the 1000 classes reads, at `(n, k)`, the column at row `n`. -/
theorem bcast_row_apply (z : S131072x1.Idx → α) (n : Fin 131072) (k : Fin 1000) :
    broadcastInDim S131072x1000 ![0, 1] bcast_S131072x1_S131072x1000_0_1 z (ix2 n k) = z (ix2 n (0 : Fin 1)) :=
  broadcastInDim_apply _ bcast_S131072x1_S131072x1000_0_1 z (ix2 n k) (ix2 n (0 : Fin 1)) (fun a => match a with
    | ⟨0, _⟩ => by show n.val = if (131072 : Nat) = 1 then 0 else n.val; rw [if_neg (by decide)]
    | ⟨1, _⟩ => by show (0 : Nat) = if (1 : Nat) = 1 then 0 else k.val; rw [if_pos rfl])

theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl
theorem hostNegf_apply {s : Shape} {φ : FTy} (a : FVec Ideal s φ) (i : s.Idx) : Host.negf a i = -(a i) := rfl
theorem hostDivf_apply {s : Shape} {φ : FTy} (a b : FVec Ideal s φ) (i : s.Idx) :
    Host.divf a b i = Ideal.div (a i) (b i) := rfl

/-- The index of row `n` with the class `k` put back on the reduced axis. -/
theorem lift_row (h : S131072x1000.Reduces [(1 : Fin 2)] S131072) (n : Fin 131072) (k : Fin 1000) :
    h.lift (ix1 n) k = ix2 n k :=
  funext fun a => Fin.ext (by match a with | ⟨0, _⟩ => rfl | ⟨1, _⟩ => rfl)

/-- The sum over the classes, from the word of zero: at row `n` the sum of the row. -/
theorem rowSum_apply (y : FVec Ideal S131072x1000 .f32) (n : Fin 131072) :
    Host.reduceAdd y (constant S_ .f32 0x00000000#32) reducesTo_S131072x1000_S131072_d1 h_S_ (ix1 n)
      = ∑ k : Fin 1000, y (ix2 n k) := by
  simp only [Host.reduceAdd, Ideal.hostReduceAdd_def]
  rw [Ideal.hostReduceAdd_single reducesTo_S131072x1000_S131072_d1 (by decide), constant_apply,
    Ideal.ofBits_zero_f32, zero_add]
  exact Finset.sum_congr rfl fun k _ => congrArg y (lift_row _ n k)

/-- The maximum over the classes, from the word of `-∞`: at row `n` the row's maximum. -/
theorem rowMax_apply (y : FVec Ideal S131072x1000 .f32) (n : Fin 131072) :
    Host.reduce FloatOps.maximumf y (constant S_ .f32 0xFF800000#32) reducesTo_S131072x1000_S131072_d1 h_S_ (ix1 n)
      = Cert.SoftCE.rowMax fun k => y (ix2 n k) := by
  rw [Host.reduce_eq_fold_single FloatOps.maximumf y _ reducesTo_S131072x1000_S131072_d1 (by decide) h_S_ (ix1 n),
    constant_apply, ofBits_negInf]
  have hy : (y ∘ (by decide : S131072x1000.Reduces [(1 : Fin 2)] S131072).lift (ix1 n)) = fun k : Fin 1000 => y (ix2 n k) :=
    funext fun k => congrArg y (lift_row _ n k)
  rw [hy]
  rfl

/-- The sum over the rows, from the word of zero. -/
theorem total_apply (z : FVec Ideal S131072 .f32) (i : S_.Idx) :
    Host.reduceAdd z (constant S_ .f32 0x00000000#32) reducesTo_S131072_S_d0 h_S_ i = ∑ n : Fin 131072, z (ix1 n) := by
  simp only [Host.reduceAdd, Ideal.hostReduceAdd_def]
  rw [Ideal.hostReduceAdd_total reducesTo_S131072_S_d0 (fun b => b.elim0), constant_apply, Ideal.ofBits_zero_f32, zero_add]
  let e : Fin 131072 ≃ S131072.Idx :=
    { toFun := fun n => ix1 n, invFun := fun j => j 0, left_inv := fun _ => rfl, right_inv := fun j => (eq_ix1 j).symm }
  exact (Equiv.sum_comp e z).symm

variable (x0 x1 : (⟨S131072x1000, .f32⟩ : BufTy).Contents (Elt Ideal))

theorem rowMaxStage_apply (n : Fin 131072) :
    rowMaxStage (F := Ideal) x0 (ix1 n) = Cert.SoftCE.rowMax fun k => x0 (ix2 n k) := by
  unfold rowMaxStage
  rw [maximumf_apply, bcast_scalar_apply, constant_apply, ofBits_negInf, rowMax_apply]
  exact max_eq_right bot_le

theorem shiftedStage_apply (n : Fin 131072) (k : Fin 1000) :
    shiftedStage (F := Ideal) x0 (ix2 n k) = x0 (ix2 n k) - Cert.SoftCE.rowMax fun k => x0 (ix2 n k) := by
  unfold shiftedStage
  rw [subf_apply, bcast_row_apply, bcast_col_apply, rowMaxStage_apply]

theorem lseStage_apply (n : Fin 131072) :
    lseStage (F := Ideal) x0 (ix2 n (0 : Fin 1)) = Cert.SoftCE.rowLse fun k => x0 (ix2 n k) := by
  unfold lseStage
  rw [hostLog_apply, bcast_col_apply, rowSum_apply]
  unfold Cert.SoftCE.rowLse
  refine congrArg Ideal.log (Finset.sum_congr rfl fun k _ => ?_)
  rw [hostExp_apply, shiftedStage_apply]

theorem logSoftmaxStage_apply (n : Fin 131072) (k : Fin 1000) :
    logSoftmaxStage (F := Ideal) x0 (ix2 n k)
      = (x0 (ix2 n k) - Cert.SoftCE.rowMax fun k => x0 (ix2 n k)) - Cert.SoftCE.rowLse fun k => x0 (ix2 n k) := by
  unfold logSoftmaxStage
  rw [subf_apply, shiftedStage_apply, bcast_row_apply, lseStage_apply]

theorem rowLossStage_apply (n : Fin 131072) :
    rowLossStage (F := Ideal) x0 x1 (ix1 n)
      = Cert.SoftCE.refRow (fun k => x0 (ix2 n k)) (fun k => x1 (ix2 n k)) := by
  unfold rowLossStage
  rw [hostNegf_apply, rowSum_apply]
  unfold Cert.SoftCE.refRow
  refine congrArg Neg.neg (Finset.sum_congr rfl fun k _ => ?_)
  rw [mulf_apply, logSoftmaxStage_apply]

/-- The row loss stage at row `n` is the row loss of row `n` of the two arrays. -/
theorem rowLossStage_rowAt (n : Fin 131072) :
    rowLossStage (F := Ideal) x0 x1 (ix1 n)
      = Cert.SoftCE.refRow (Cert.SoftCE.rowAt x0 n.val) (Cert.SoftCE.rowAt x1 n.val) := by
  rw [rowLossStage_apply, Cert.SoftCE.rowAt_of_lt x0 n.isLt, Cert.SoftCE.rowAt_of_lt x1 n.isLt]

/-- At the extended reals the reference's result is the mean of the row losses. -/
theorem refTerm_eq : refTerm (F := Ideal) x0 x1 = fun _ => Cert.SoftCE.refTotal x0 x1 := by
  funext i
  unfold refTerm
  rw [hostDivf_apply, total_apply, constant_apply]
  unfold Cert.SoftCE.refTotal
  simp only [rowLossStage_rowAt]

end Value

end Cert.ReferenceIdeal.RefValue

end
-- ==== Proof.LibTypedOps.lean ====
/-
  A host operation written over typed references is the plain operation.

  A module-local function's operations are written over references that carry the type of the tensor value they
  hold; such an operation applies its function after transporting the operands' contents, and before transporting
  the result's, along the equation between the carried type and the reference's own type. At a reference that
  carries its own type that equation is reflexivity, the transports are the identity, and the operation is the
  plain one at the same references with the same function. So a list of operations that mixes the two spellings
  can be respelt in plain operations one operation at a time, each step a statement about one small term; the
  fold of the respelt list over the launch contents then contains no transport at all. This holds over any
  signature and any value type.
-/
import Idealize.ShloMosaic.Lib.StableHlo

noncomputable section

namespace Cert.Lib.TypedOps

open Idealize.ShloMosaic Idealize.ShloMosaic.StableHlo

variable {τ : Topo} {sig : RefSig} {Val : EltTy → Type}

/-- At a reference carrying its own type the transport is the identity: the constant. -/
theorem tnullary_plain (y : Ref sig .tc) (h1 : y.space ≠ .host) (h2 : y.isScoped = false) (v : y.ty.Contents Val) :
    (TRef.nullary (⟨y, rfl, h1, h2⟩ : TRef sig y.ty) v : HloOp τ sig Val) = nullary y v ⟨h1, h2⟩ := rfl

/-- … the one-operand operation. -/
theorem tunary_plain (x y : Ref sig .tc) (hx1 : x.space ≠ .host) (hx2 : x.isScoped = false)
    (hy1 : y.space ≠ .host) (hy2 : y.isScoped = false) (f : x.ty.Contents Val → y.ty.Contents Val) :
    (TRef.unary (⟨x, rfl, hx1, hx2⟩ : TRef sig x.ty) (⟨y, rfl, hy1, hy2⟩ : TRef sig y.ty) f : HloOp τ sig Val)
      = unary x y f ⟨hx1, hx2⟩ ⟨hy1, hy2⟩ := rfl

/-- … the two-operand operation. -/
theorem tbinary_plain (a b y : Ref sig .tc) (ha1 : a.space ≠ .host) (ha2 : a.isScoped = false)
    (hb1 : b.space ≠ .host) (hb2 : b.isScoped = false) (hy1 : y.space ≠ .host) (hy2 : y.isScoped = false)
    (f : a.ty.Contents Val → b.ty.Contents Val → y.ty.Contents Val) :
    (TRef.binary (⟨a, rfl, ha1, ha2⟩ : TRef sig a.ty) (⟨b, rfl, hb1, hb2⟩ : TRef sig b.ty) (⟨y, rfl, hy1, hy2⟩ : TRef sig y.ty) f :
        HloOp τ sig Val)
      = binary a b y f ⟨ha1, ha2⟩ ⟨hb1, hb2⟩ ⟨hy1, hy2⟩ := rfl

/-- … the three-operand operation. -/
theorem tternary_plain (c a b y : Ref sig .tc) (hc1 : c.space ≠ .host) (hc2 : c.isScoped = false)
    (ha1 : a.space ≠ .host) (ha2 : a.isScoped = false) (hb1 : b.space ≠ .host) (hb2 : b.isScoped = false)
    (hy1 : y.space ≠ .host) (hy2 : y.isScoped = false)
    (f : c.ty.Contents Val → a.ty.Contents Val → b.ty.Contents Val → y.ty.Contents Val) :
    (TRef.ternary (⟨c, rfl, hc1, hc2⟩ : TRef sig c.ty) (⟨a, rfl, ha1, ha2⟩ : TRef sig a.ty) (⟨b, rfl, hb1, hb2⟩ : TRef sig b.ty)
        (⟨y, rfl, hy1, hy2⟩ : TRef sig y.ty) f : HloOp τ sig Val)
      = ternary c a b y f ⟨hc1, hc2⟩ ⟨ha1, ha2⟩ ⟨hb1, hb2⟩ ⟨hy1, hy2⟩ := rfl

end Cert.Lib.TypedOps

end
-- ==== Proof.RefRunPlain.lean ====
/-
  The reference program as a straight line of host operations, and its run.

  The program's first fifteen operations are those of its log-softmax function, written over references
  that carry the type of the value they hold; each transports its function along the equation between the
  carried type and the reference's own type. At a reference of the signature that equation is between equal
  types, so the transport is the identity and the operation is the plain operation at the same references
  with the same function (one lemma per kind of operation, stated at any reference whose carried type is
  its own: `LibTypedOps.lean`). With the list respelt in plain operations, the fold of the operations' results over the launch
  contents, read at the result buffer, is the composed term of the two argument arrays.
-/
import proofs.«178073_j34102040330686_2_alg».proof.Proof.Gen.ReferenceIdeal
import proofs.«178073_j34102040330686_2_alg».proof.Proof.RefValue
import proofs.«178073_j34102040330686_2_alg».proof.Proof.LibTypedOps
import Idealize.ShloMosaic.Lib.StableHlo.Run

noncomputable section

namespace Cert.ReferenceIdeal.RefRunPlain

open Cert.ReferenceIdeal Cert.ReferenceIdeal.Gen Idealize.ShloMosaic Idealize.ShloMosaic.TcCoe Idealize.SL.Sem Idealize.ShloMosaic.StableHlo Cert.Lib.TypedOps

variable {F : FTy → Type} [FloatOps F]

/-! ### The fifteen operations of the log-softmax, one by one -/

theorem op1 : (TRef.nullary (TRef.of (T := ⟨S_, .f32⟩) main_call0_cst) (constant S_ .f32 0xFF800000#32) : HloOp τ sig (Elt F)) =
    nullary main_call0_cst (constant S_ .f32 0xFF800000#32) :=
  tnullary_plain main_call0_cst _ _ _

theorem op2 : (TRef.binary (TRef.of (T := ⟨S131072x1000, .f32⟩) main_arg0) (TRef.of (T := ⟨S_, .f32⟩) main_call0_cst) (TRef.of (T := ⟨S131072, .f32⟩) main_call0_v0) (fun x v => Host.reduce FloatOps.maximumf x v reducesTo_S131072x1000_S131072_d1 h_S_) : HloOp τ sig (Elt F)) =
    binary main_arg0 main_call0_cst main_call0_v0 (fun x v => Host.reduce FloatOps.maximumf x v reducesTo_S131072x1000_S131072_d1 h_S_ : (⟨S131072x1000, .f32⟩ : BufTy).Contents (Elt F) → (⟨S_, .f32⟩ : BufTy).Contents (Elt F) → (⟨S131072, .f32⟩ : BufTy).Contents (Elt F)) :=
  tbinary_plain main_arg0 main_call0_cst main_call0_v0 _ _ _ _ _ _ _

theorem op3 : (TRef.nullary (TRef.of (T := ⟨S_, .f32⟩) main_call0_cst_0) (constant S_ .f32 0xFF800000#32) : HloOp τ sig (Elt F)) =
    nullary main_call0_cst_0 (constant S_ .f32 0xFF800000#32) :=
  tnullary_plain main_call0_cst_0 _ _ _

theorem op4 : (TRef.unary (TRef.of (T := ⟨S_, .f32⟩) main_call0_cst_0) (TRef.of (T := ⟨S131072, .f32⟩) main_call0_v1) (broadcastInDim S131072 ![] bcast_S_S131072) : HloOp τ sig (Elt F)) =
    unary main_call0_cst_0 main_call0_v1 (broadcastInDim S131072 ![] bcast_S_S131072 : (⟨S_, .f32⟩ : BufTy).Contents (Elt F) → (⟨S131072, .f32⟩ : BufTy).Contents (Elt F)) :=
  tunary_plain main_call0_cst_0 main_call0_v1 _ _ _ _ _

theorem op5 : (TRef.binary (TRef.of (T := ⟨S131072, .f32⟩) main_call0_v1) (TRef.of (T := ⟨S131072, .f32⟩) main_call0_v0) (TRef.of (T := ⟨S131072, .f32⟩) main_call0_v2) maximumf : HloOp τ sig (Elt F)) =
    binary main_call0_v1 main_call0_v0 main_call0_v2 (maximumf : (⟨S131072, .f32⟩ : BufTy).Contents (Elt F) → (⟨S131072, .f32⟩ : BufTy).Contents (Elt F) → (⟨S131072, .f32⟩ : BufTy).Contents (Elt F)) :=
  tbinary_plain main_call0_v1 main_call0_v0 main_call0_v2 _ _ _ _ _ _ _

theorem op6 : (TRef.unary (TRef.of (T := ⟨S131072, .f32⟩) main_call0_v2) (TRef.of (T := ⟨S131072x1, .f32⟩) main_call0_v3) (broadcastInDim S131072x1 ![0] bcast_S131072_S131072x1_0) : HloOp τ sig (Elt F)) =
    unary main_call0_v2 main_call0_v3 (broadcastInDim S131072x1 ![0] bcast_S131072_S131072x1_0 : (⟨S131072, .f32⟩ : BufTy).Contents (Elt F) → (⟨S131072x1, .f32⟩ : BufTy).Contents (Elt F)) :=
  tunary_plain main_call0_v2 main_call0_v3 _ _ _ _ _

theorem op7 : (TRef.unary (TRef.of (T := ⟨S131072x1, .f32⟩) main_call0_v3) (TRef.of (T := ⟨S131072x1000, .f32⟩) main_call0_v4) (broadcastInDim S131072x1000 ![0, 1] bcast_S131072x1_S131072x1000_0_1) : HloOp τ sig (Elt F)) =
    unary main_call0_v3 main_call0_v4 (broadcastInDim S131072x1000 ![0, 1] bcast_S131072x1_S131072x1000_0_1 : (⟨S131072x1, .f32⟩ : BufTy).Contents (Elt F) → (⟨S131072x1000, .f32⟩ : BufTy).Contents (Elt F)) :=
  tunary_plain main_call0_v3 main_call0_v4 _ _ _ _ _

theorem op8 : (TRef.binary (TRef.of (T := ⟨S131072x1000, .f32⟩) main_arg0) (TRef.of (T := ⟨S131072x1000, .f32⟩) main_call0_v4) (TRef.of (T := ⟨S131072x1000, .f32⟩) main_call0_v5) subf : HloOp τ sig (Elt F)) =
    binary main_arg0 main_call0_v4 main_call0_v5 (subf : (⟨S131072x1000, .f32⟩ : BufTy).Contents (Elt F) → (⟨S131072x1000, .f32⟩ : BufTy).Contents (Elt F) → (⟨S131072x1000, .f32⟩ : BufTy).Contents (Elt F)) :=
  tbinary_plain main_arg0 main_call0_v4 main_call0_v5 _ _ _ _ _ _ _

theorem op9 : (TRef.unary (TRef.of (T := ⟨S131072x1000, .f32⟩) main_call0_v5) (TRef.of (T := ⟨S131072x1000, .f32⟩) main_call0_v6) Host.exp : HloOp τ sig (Elt F)) =
    unary main_call0_v5 main_call0_v6 (Host.exp : (⟨S131072x1000, .f32⟩ : BufTy).Contents (Elt F) → (⟨S131072x1000, .f32⟩ : BufTy).Contents (Elt F)) :=
  tunary_plain main_call0_v5 main_call0_v6 _ _ _ _ _

theorem op10 : (TRef.nullary (TRef.of (T := ⟨S_, .f32⟩) main_call0_cst_1) (constant S_ .f32 0x00000000#32) : HloOp τ sig (Elt F)) =
    nullary main_call0_cst_1 (constant S_ .f32 0x00000000#32) :=
  tnullary_plain main_call0_cst_1 _ _ _

theorem op11 : (TRef.binary (TRef.of (T := ⟨S131072x1000, .f32⟩) main_call0_v6) (TRef.of (T := ⟨S_, .f32⟩) main_call0_cst_1) (TRef.of (T := ⟨S131072, .f32⟩) main_call0_v7) (fun x v => Host.reduceAdd x v reducesTo_S131072x1000_S131072_d1 h_S_) : HloOp τ sig (Elt F)) =
    binary main_call0_v6 main_call0_cst_1 main_call0_v7 (fun x v => Host.reduceAdd x v reducesTo_S131072x1000_S131072_d1 h_S_ : (⟨S131072x1000, .f32⟩ : BufTy).Contents (Elt F) → (⟨S_, .f32⟩ : BufTy).Contents (Elt F) → (⟨S131072, .f32⟩ : BufTy).Contents (Elt F)) :=
  tbinary_plain main_call0_v6 main_call0_cst_1 main_call0_v7 _ _ _ _ _ _ _

theorem op12 : (TRef.unary (TRef.of (T := ⟨S131072, .f32⟩) main_call0_v7) (TRef.of (T := ⟨S131072x1, .f32⟩) main_call0_v8) (broadcastInDim S131072x1 ![0] bcast_S131072_S131072x1_0) : HloOp τ sig (Elt F)) =
    unary main_call0_v7 main_call0_v8 (broadcastInDim S131072x1 ![0] bcast_S131072_S131072x1_0 : (⟨S131072, .f32⟩ : BufTy).Contents (Elt F) → (⟨S131072x1, .f32⟩ : BufTy).Contents (Elt F)) :=
  tunary_plain main_call0_v7 main_call0_v8 _ _ _ _ _

theorem op13 : (TRef.unary (TRef.of (T := ⟨S131072x1, .f32⟩) main_call0_v8) (TRef.of (T := ⟨S131072x1, .f32⟩) main_call0_v9) Host.log : HloOp τ sig (Elt F)) =
    unary main_call0_v8 main_call0_v9 (Host.log : (⟨S131072x1, .f32⟩ : BufTy).Contents (Elt F) → (⟨S131072x1, .f32⟩ : BufTy).Contents (Elt F)) :=
  tunary_plain main_call0_v8 main_call0_v9 _ _ _ _ _

theorem op14 : (TRef.unary (TRef.of (T := ⟨S131072x1, .f32⟩) main_call0_v9) (TRef.of (T := ⟨S131072x1000, .f32⟩) main_call0_v10) (broadcastInDim S131072x1000 ![0, 1] bcast_S131072x1_S131072x1000_0_1) : HloOp τ sig (Elt F)) =
    unary main_call0_v9 main_call0_v10 (broadcastInDim S131072x1000 ![0, 1] bcast_S131072x1_S131072x1000_0_1 : (⟨S131072x1, .f32⟩ : BufTy).Contents (Elt F) → (⟨S131072x1000, .f32⟩ : BufTy).Contents (Elt F)) :=
  tunary_plain main_call0_v9 main_call0_v10 _ _ _ _ _

theorem op15 : (TRef.binary (TRef.of (T := ⟨S131072x1000, .f32⟩) main_call0_v5) (TRef.of (T := ⟨S131072x1000, .f32⟩) main_call0_v10) (TRef.of (T := ⟨S131072x1000, .f32⟩) main_v0) subf : HloOp τ sig (Elt F)) =
    binary main_call0_v5 main_call0_v10 main_v0 (subf : (⟨S131072x1000, .f32⟩ : BufTy).Contents (Elt F) → (⟨S131072x1000, .f32⟩ : BufTy).Contents (Elt F) → (⟨S131072x1000, .f32⟩ : BufTy).Contents (Elt F)) :=
  tbinary_plain main_call0_v5 main_call0_v10 main_v0 _ _ _ _ _ _ _

/-! ### The two lists -/

/-- The 23 operations as the program spells them. -/
abbrev opsT : List (HloOp τ sig (Elt F)) :=
  [ TRef.nullary (TRef.of (T := ⟨S_, .f32⟩) main_call0_cst) (constant S_ .f32 0xFF800000#32),
    TRef.binary (TRef.of (T := ⟨S131072x1000, .f32⟩) main_arg0) (TRef.of (T := ⟨S_, .f32⟩) main_call0_cst) (TRef.of (T := ⟨S131072, .f32⟩) main_call0_v0) (fun x v => Host.reduce FloatOps.maximumf x v reducesTo_S131072x1000_S131072_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S131072, .f32⟩) main_call0_v1) (broadcastInDim S131072 ![] bcast_S_S131072),
    TRef.binary (TRef.of (T := ⟨S131072, .f32⟩) main_call0_v1) (TRef.of (T := ⟨S131072, .f32⟩) main_call0_v0) (TRef.of (T := ⟨S131072, .f32⟩) main_call0_v2) maximumf,
    TRef.unary (TRef.of (T := ⟨S131072, .f32⟩) main_call0_v2) (TRef.of (T := ⟨S131072x1, .f32⟩) main_call0_v3) (broadcastInDim S131072x1 ![0] bcast_S131072_S131072x1_0),
    TRef.unary (TRef.of (T := ⟨S131072x1, .f32⟩) main_call0_v3) (TRef.of (T := ⟨S131072x1000, .f32⟩) main_call0_v4) (broadcastInDim S131072x1000 ![0, 1] bcast_S131072x1_S131072x1000_0_1),
    TRef.binary (TRef.of (T := ⟨S131072x1000, .f32⟩) main_arg0) (TRef.of (T := ⟨S131072x1000, .f32⟩) main_call0_v4) (TRef.of (T := ⟨S131072x1000, .f32⟩) main_call0_v5) subf,
    TRef.unary (TRef.of (T := ⟨S131072x1000, .f32⟩) main_call0_v5) (TRef.of (T := ⟨S131072x1000, .f32⟩) main_call0_v6) Host.exp,
    TRef.nullary (TRef.of (T := ⟨S_, .f32⟩) main_call0_cst_1) (constant S_ .f32 0x00000000#32),
    TRef.binary (TRef.of (T := ⟨S131072x1000, .f32⟩) main_call0_v6) (TRef.of (T := ⟨S_, .f32⟩) main_call0_cst_1) (TRef.of (T := ⟨S131072, .f32⟩) main_call0_v7) (fun x v => Host.reduceAdd x v reducesTo_S131072x1000_S131072_d1 h_S_),
    TRef.unary (TRef.of (T := ⟨S131072, .f32⟩) main_call0_v7) (TRef.of (T := ⟨S131072x1, .f32⟩) main_call0_v8) (broadcastInDim S131072x1 ![0] bcast_S131072_S131072x1_0),
    TRef.unary (TRef.of (T := ⟨S131072x1, .f32⟩) main_call0_v8) (TRef.of (T := ⟨S131072x1, .f32⟩) main_call0_v9) Host.log,
    TRef.unary (TRef.of (T := ⟨S131072x1, .f32⟩) main_call0_v9) (TRef.of (T := ⟨S131072x1000, .f32⟩) main_call0_v10) (broadcastInDim S131072x1000 ![0, 1] bcast_S131072x1_S131072x1000_0_1),
    TRef.binary (TRef.of (T := ⟨S131072x1000, .f32⟩) main_call0_v5) (TRef.of (T := ⟨S131072x1000, .f32⟩) main_call0_v10) (TRef.of (T := ⟨S131072x1000, .f32⟩) main_v0) subf,
    binary main_arg1 main_v0 main_v1 (mulf : (⟨S131072x1000, .f32⟩ : BufTy).Contents (Elt F) → (⟨S131072x1000, .f32⟩ : BufTy).Contents (Elt F) → (⟨S131072x1000, .f32⟩ : BufTy).Contents (Elt F)),
    nullary main_cst (constant S_ .f32 0x00000000#32),
    binary main_v1 main_cst main_v2 ((fun x v => Host.reduceAdd x v reducesTo_S131072x1000_S131072_d1 h_S_) : (⟨S131072x1000, .f32⟩ : BufTy).Contents (Elt F) → (⟨S_, .f32⟩ : BufTy).Contents (Elt F) → (⟨S131072, .f32⟩ : BufTy).Contents (Elt F)),
    unary main_v2 main_v3 (Host.negf : (⟨S131072, .f32⟩ : BufTy).Contents (Elt F) → (⟨S131072, .f32⟩ : BufTy).Contents (Elt F)),
    nullary main_cst_0 (constant S_ .f32 0x00000000#32),
    binary main_v3 main_cst_0 main_v4 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    nullary main_cst_1 (constant S_ .f32 0x48000000#32),
    binary main_v4 main_cst_1 main_v5 (Host.divf : (⟨S_, .f32⟩ : BufTy).Contents (Elt F) → (⟨S_, .f32⟩ : BufTy).Contents (Elt F) → (⟨S_, .f32⟩ : BufTy).Contents (Elt F)) ]

/-- The same 23 operations, all plain. -/
abbrev opsP : List (HloOp τ sig (Elt F)) :=
  [ nullary main_call0_cst (constant S_ .f32 0xFF800000#32),
    binary main_arg0 main_call0_cst main_call0_v0 (fun x v => Host.reduce FloatOps.maximumf x v reducesTo_S131072x1000_S131072_d1 h_S_ : (⟨S131072x1000, .f32⟩ : BufTy).Contents (Elt F) → (⟨S_, .f32⟩ : BufTy).Contents (Elt F) → (⟨S131072, .f32⟩ : BufTy).Contents (Elt F)),
    nullary main_call0_cst_0 (constant S_ .f32 0xFF800000#32),
    unary main_call0_cst_0 main_call0_v1 (broadcastInDim S131072 ![] bcast_S_S131072 : (⟨S_, .f32⟩ : BufTy).Contents (Elt F) → (⟨S131072, .f32⟩ : BufTy).Contents (Elt F)),
    binary main_call0_v1 main_call0_v0 main_call0_v2 (maximumf : (⟨S131072, .f32⟩ : BufTy).Contents (Elt F) → (⟨S131072, .f32⟩ : BufTy).Contents (Elt F) → (⟨S131072, .f32⟩ : BufTy).Contents (Elt F)),
    unary main_call0_v2 main_call0_v3 (broadcastInDim S131072x1 ![0] bcast_S131072_S131072x1_0 : (⟨S131072, .f32⟩ : BufTy).Contents (Elt F) → (⟨S131072x1, .f32⟩ : BufTy).Contents (Elt F)),
    unary main_call0_v3 main_call0_v4 (broadcastInDim S131072x1000 ![0, 1] bcast_S131072x1_S131072x1000_0_1 : (⟨S131072x1, .f32⟩ : BufTy).Contents (Elt F) → (⟨S131072x1000, .f32⟩ : BufTy).Contents (Elt F)),
    binary main_arg0 main_call0_v4 main_call0_v5 (subf : (⟨S131072x1000, .f32⟩ : BufTy).Contents (Elt F) → (⟨S131072x1000, .f32⟩ : BufTy).Contents (Elt F) → (⟨S131072x1000, .f32⟩ : BufTy).Contents (Elt F)),
    unary main_call0_v5 main_call0_v6 (Host.exp : (⟨S131072x1000, .f32⟩ : BufTy).Contents (Elt F) → (⟨S131072x1000, .f32⟩ : BufTy).Contents (Elt F)),
    nullary main_call0_cst_1 (constant S_ .f32 0x00000000#32),
    binary main_call0_v6 main_call0_cst_1 main_call0_v7 (fun x v => Host.reduceAdd x v reducesTo_S131072x1000_S131072_d1 h_S_ : (⟨S131072x1000, .f32⟩ : BufTy).Contents (Elt F) → (⟨S_, .f32⟩ : BufTy).Contents (Elt F) → (⟨S131072, .f32⟩ : BufTy).Contents (Elt F)),
    unary main_call0_v7 main_call0_v8 (broadcastInDim S131072x1 ![0] bcast_S131072_S131072x1_0 : (⟨S131072, .f32⟩ : BufTy).Contents (Elt F) → (⟨S131072x1, .f32⟩ : BufTy).Contents (Elt F)),
    unary main_call0_v8 main_call0_v9 (Host.log : (⟨S131072x1, .f32⟩ : BufTy).Contents (Elt F) → (⟨S131072x1, .f32⟩ : BufTy).Contents (Elt F)),
    unary main_call0_v9 main_call0_v10 (broadcastInDim S131072x1000 ![0, 1] bcast_S131072x1_S131072x1000_0_1 : (⟨S131072x1, .f32⟩ : BufTy).Contents (Elt F) → (⟨S131072x1000, .f32⟩ : BufTy).Contents (Elt F)),
    binary main_call0_v5 main_call0_v10 main_v0 (subf : (⟨S131072x1000, .f32⟩ : BufTy).Contents (Elt F) → (⟨S131072x1000, .f32⟩ : BufTy).Contents (Elt F) → (⟨S131072x1000, .f32⟩ : BufTy).Contents (Elt F)),
    binary main_arg1 main_v0 main_v1 (mulf : (⟨S131072x1000, .f32⟩ : BufTy).Contents (Elt F) → (⟨S131072x1000, .f32⟩ : BufTy).Contents (Elt F) → (⟨S131072x1000, .f32⟩ : BufTy).Contents (Elt F)),
    nullary main_cst (constant S_ .f32 0x00000000#32),
    binary main_v1 main_cst main_v2 ((fun x v => Host.reduceAdd x v reducesTo_S131072x1000_S131072_d1 h_S_) : (⟨S131072x1000, .f32⟩ : BufTy).Contents (Elt F) → (⟨S_, .f32⟩ : BufTy).Contents (Elt F) → (⟨S131072, .f32⟩ : BufTy).Contents (Elt F)),
    unary main_v2 main_v3 (Host.negf : (⟨S131072, .f32⟩ : BufTy).Contents (Elt F) → (⟨S131072, .f32⟩ : BufTy).Contents (Elt F)),
    nullary main_cst_0 (constant S_ .f32 0x00000000#32),
    binary main_v3 main_cst_0 main_v4 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    nullary main_cst_1 (constant S_ .f32 0x48000000#32),
    binary main_v4 main_cst_1 main_v5 (Host.divf : (⟨S_, .f32⟩ : BufTy).Contents (Elt F) → (⟨S_, .f32⟩ : BufTy).Contents (Elt F) → (⟨S_, .f32⟩ : BufTy).Contents (Elt F)) ]

theorem cons_congr {α : Type*} {a b : α} {l l' : List α} (h : a = b) (h' : l = l') : a :: l = b :: l' := by
  rw [h, h']

theorem opsT_eq_opsP : (opsT : List (HloOp τ sig (Elt F))) = opsP :=
  cons_congr op1 (cons_congr op2 (cons_congr op3 (cons_congr op4 (cons_congr op5 (cons_congr op6 (cons_congr op7 (cons_congr op8 (cons_congr op9 (cons_congr op10 (cons_congr op11 (cons_congr op12 (cons_congr op13 (cons_congr op14 (cons_congr op15 (rfl)))))))))))))))

theorem main_eqT (c : Dev nD) : main (F := F) c = seq opsT := rfl

theorem main_eq (c : Dev nD) : main (F := F) c = seq opsP :=
  (main_eqT c).trans (congrArg seq opsT_eq_opsP)

/-! ### The run -/

theorem scopedRefs_eq : (Finset.univ.filter fun b : Ref sig .tc => b.isScoped) = ∅ := by decide
theorem scopedSems_eq : (Finset.univ.filter fun sm : SemLoc sig => sm.isScoped .tc) = ∅ := by decide
theorem ops_sub : (opsP : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., unary_bufs_sub .., nullary_bufs_sub .., binary_bufs_sub .., nullary_bufs_sub .., binary_bufs_sub ..⟩

variable (m : (ℓ : Loc nD τ sig) → Buf (Elt F) ℓ)

attribute [local irreducible] Host.reduce Host.reduceAdd in
/-- The fold of the 23 results over the launch contents, read at the result buffer, is the composed term. -/
theorem after_v5 (c : Dev nD) :
    after (opsP (F := F)) (launchContents m c) (Proc.devRef .tc main_v5)
      = RefValue.refTerm (m ((c.tc : Thread nD τ).loc main_arg0)) (m ((c.tc : Thread nD τ).loc main_arg1)) := by
  unfold RefValue.refTerm RefValue.rowLossStage RefValue.logSoftmaxStage RefValue.lseStage RefValue.shiftedStage
    RefValue.rowMaxStage
  after_results

/-- No operation writes the first argument. -/
theorem after_arg0 (c : Dev nD) :
    after (opsP (F := F)) (launchContents m c) (Proc.devRef .tc main_arg0) = m ((c.tc : Thread nD τ).loc main_arg0) := by
  after_results

/-- No operation writes the second argument. -/
theorem after_arg1 (c : Dev nD) :
    after (opsP (F := F)) (launchContents m c) (Proc.devRef .tc main_arg1) = m ((c.tc : Thread nD τ).loc main_arg1) := by
  after_results

/-- On every device, for any float values, from any memory with zero counters: every weakly fair execution of the
    program terminates with its result buffer at the composed term of the two argument arrays' launch contents
    and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v5)
          = RefValue.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (after_v5 m c),
      (h c main_arg0).trans (after_arg0 m c),
      (h c main_arg1).trans (after_arg1 m c)⟩)
    (run_seq scopedRefs_eq scopedSems_eq defs main (fun _ => opsP) main_eq (fun _ => ops_sub) m ρ)

end Cert.ReferenceIdeal.RefRunPlain

end
-- ==== Proof.lean ====
/-
  Soft-label cross entropy over 131072 rows of 1000 classes: the blocked kernel against the one-pass reference, over the
  extended reals.

  For a row of logits `x` and weights `t` put `M = max_k x k` and `L = log ∑_k exp (x k - M)`. The reference takes
  `log_softmax x k = (x k - M) - L`, the row loss `- ∑_k t k * ((x k - M) - L)`, and the mean of the row losses over all
  rows. The kernel never forms `log_softmax`: per row it computes `(M + L) * ∑_k t k - ∑_k t k * x k`, sums the rows of a
  1024-row block, accumulates 64 consecutive blocks (one half of the rows) in a 1×1 accumulator that is reset at the first
  of them, broadcasts each half's total into a slab of a 2×8×128 array, and outside the region adds entry (0,0,0) of
  the two slabs and divides by the number of rows, with the same word for 131072 as the reference.

  The two row losses are equal when every entry is a real number: then `M` is real (a row is not empty), the sum of
  exponentials is a positive real, so `L` is real, and `t k` distributes over `(x k - M) - L` (`SpecLaw.lean`). At
  an infinite entry distributivity can fail in the extended reals, which is where the precondition — every input finite
  — is used (`Finite.lean` reads it entry by entry). Regrouping the sum over the 131072 rows as 2 × 64 × 1024 is
  associativity and commutativity of a finite sum. Both sides divide the same total by the same word, so the results agree.

  The kernel's side: what a grid point leaves in the accumulator and in the output block (`KernelPieces.lean`), that
  contribution read index by index (`KernelReduce.lean`, `KernelPayload.lean`), which rows of the arguments a point's blocks
  are (`KernelBlocks.lean`), the accumulator after each point by induction on the point (`KernelAcc.lean`), the output array
  after the run (`KernelFinal.lean`), the operations after the region (`KernelTail.lean`) and the run (`KernelRun.lean`).
  The reference's side: its 23 host operations run in order (`RefRunPlain.lean`) leave a term (`RefValue.lean`) that, read
  index by index, is the mean of the row losses. The three frame claims are the programs' runs with the results dropped;
  the idealization rewrote nothing, so it preserves the kernel trivially.
-/
import proofs.«178073_j34102040330686_2_alg».proof.Defs
import proofs.«178073_j34102040330686_2_alg».proof.Proof.Gen.Kernel
import proofs.«178073_j34102040330686_2_alg».proof.Proof.Gen.Kernel.Skeleton
import proofs.«178073_j34102040330686_2_alg».proof.Proof.Gen.Kernel.Launch
import proofs.«178073_j34102040330686_2_alg».proof.Proof.Gen.Kernel.Points
import proofs.«178073_j34102040330686_2_alg».proof.Proof.Gen.Kernel.Frame
import proofs.«178073_j34102040330686_2_alg».proof.Proof.Gen.KernelIdeal
import proofs.«178073_j34102040330686_2_alg».proof.Proof.Gen.KernelIdeal.Skeleton
import proofs.«178073_j34102040330686_2_alg».proof.Proof.Gen.KernelIdeal.Launch
import proofs.«178073_j34102040330686_2_alg».proof.Proof.Gen.KernelIdeal.Points
import proofs.«178073_j34102040330686_2_alg».proof.Proof.Gen.KernelIdeal.Frame
import proofs.«178073_j34102040330686_2_alg».proof.Proof.Gen.ReferenceIdeal
import proofs.«178073_j34102040330686_2_alg».proof.Proof.Gen.Pre_finite_inputs
import proofs.«178073_j34102040330686_2_alg».proof.Proof.SpecLaw
import proofs.«178073_j34102040330686_2_alg».proof.Proof.Finite
import proofs.«178073_j34102040330686_2_alg».proof.Proof.KernelFinal
import proofs.«178073_j34102040330686_2_alg».proof.Proof.KernelRun
import proofs.«178073_j34102040330686_2_alg».proof.Proof.RefValue
import proofs.«178073_j34102040330686_2_alg».proof.Proof.RefRunPlain
import Idealize.ShloMosaic.Adequacy
import Idealize.ShloMosaic.Init

noncomputable section

namespace Cert.Proof

open Idealize.ShloMosaic Idealize.SL.Sem

/-- Each program runs and leaves its arguments as they were: the kernels' generated frames, and the reference's run
    with its result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRunPlain.run (F := Ideal) m ρ)

/-- No operation was rewritten: the idealized kernel is the kernel's own text read over the extended reals. -/
theorem preserves : Cert.preserves_Kernel_KernelIdeal := trivial

/-- From memories agreeing on the two arguments, the kernel ends with `kernelTotal` of them and the reference with
    `refTotal` of them; the arguments being finite, the two are one extended real. -/
theorem algebraic : Cert.algebraic_KernelIdeal_ReferenceIdeal := by
  intro m ρ m' ρ' hpre hagree
  refine ⟨fun c => (fun _ => Cert.SoftCE.kernelTotal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.CE.run_of_final m ρ (fun c => Cert.KernelIdeal.CE.final2 m c), ?_⟩
  refine (θ_run Cert.ReferenceIdeal.defs _ _).mono (fun _ h c => ⟨(h c).1.trans ?_, (h c).2⟩)
    (Cert.ReferenceIdeal.RefRunPlain.run (F := Ideal) m' ρ')
  rw [(hagree c).1, (hagree c).2, Cert.ReferenceIdeal.RefValue.refTerm_eq]
  obtain ⟨hX, hT⟩ := Cert.SoftCE.real_of_Pre_KernelIdeal m hpre c
  funext _
  exact (Cert.SoftCE.kernelTotal_eq_refTotal _ _ hX hT).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
